-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 29
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x4096, .f32⟩
  | .hbm, ⟨24, _⟩ => ⟨S1024x4096, .bf16⟩
  | .hbm, ⟨25, _⟩ => ⟨S4096, .f32⟩
  | .hbm, ⟨26, _⟩ => ⟨S1x4096, .f32⟩
  | .hbm, ⟨27, _⟩ => ⟨S16384x1024, .f32⟩
  | .hbm, ⟨28, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x2048_S1024x1024_0_0 : S1024x2048.Slices ![0, 0] S1024x1024
  concatenates_S1024x1024_S1024x1024_S1024x1024_S1024x1024_S4096x1024_d0 : Shape.Concatenates [S1024x1024, S1024x1024, S1024x1024, S1024x1024] S4096x1024 0
  slices_S1024x2048_S1024x1024_0_1024 : S1024x2048.Slices ![0, 1024] S1024x1024
  transposes_S4096x1024_S1024x4096_1_0 : S4096x1024.Transposes [1, 0] S1024x4096
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.CellRunBits.lean ====
/-
  The run of the fused LSTM-cell program, read at any float instance.

  @main first lays the weights out (for each of the two halves of the contraction axis: the four gates' column
  slices stacked, transposed and narrowed; the four biases joined into one row) and then enters one region whose grid
  has 64 points. At point t the body is handed rows 256 t … 256 t + 255 of x, h and c, the two whole weight
  matrices and the bias row, and stores two blocks of 256 rows, the new hidden state and the new cell state, each
  a pure function of those six blocks. The blocks of different points are disjoint and tile the two result arrays.

  This module states what each output block holds after the body, proves the body's triple, assembles the proof
  data of the region, and runs @main: it terminates, faults nowhere, leaves every argument array as launched, and
  leaves each result array at the blocks' values written back.
-/
import proofs.«165963_j3685081940484_2_alg».proof.Proof.Gen.Kernel.Launch
import proofs.«165963_j3685081940484_2_alg».proof.Proof.Gen.Kernel.Skeleton
import proofs.«165963_j3685081940484_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the sixteen host lines. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every array of the region at its written-back contents and every other buffer as the
    region found it: x, h and c are input arrays of the region (never written back), the weights and biases are
    read by host lines only; none is written by a host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: each buffer whole -/

abbrev rRows : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output buffer -/

/-- The new hidden state's block, from the six input blocks (x, h, c rows; the two weight matrices; the bias row). -/
def hiddenBlock (x0 x1 x2 : Vec F S256x1024 .f32) (x3 x4 : Vec F S1024x4096 .bf16) (x5 : Vec F S1x4096 .f32) : Vec F S256x1024 .f32 :=
  View.canon [⟨rRows, k0_pay3 (View.ld x0 rRows) (View.ld x1 rRows) (View.ld x3 rWeights) (View.ld x4 rWeights) (View.ld x5 rBias) (View.ld x2 rRows)⟩]

/-- The new cell state's block, from the same six blocks. -/
def cellBlock (x0 x1 x2 : Vec F S256x1024 .f32) (x3 x4 : Vec F S1024x4096 .bf16) (x5 : Vec F S1x4096 .f32) : Vec F S256x1024 .f32 :=
  View.canon [⟨rRows, k0_pay2 (View.ld x0 rRows) (View.ld x1 rRows) (View.ld x3 rWeights) (View.ld x4 rWeights) (View.ld x5 rBias) (View.ld x2 rRows)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 4000000 in
/-- The body on whole staging buffers, the six inputs' at contents `xW` and the two outputs' at anything, runs to the
    continuation holding the inputs as they were and the outputs at `hiddenBlock` and `cellBlock` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenBlock x0 x1 x2 x3 x4 x5)
            ∗ owns (c : Thread nD τ) arg8 fullShare (cellBlock x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The region's proof data -/

/-- On core `c`: the arrays as the region finds them; after the body at point `t` each input's buffer at its block,
    the two outputs' at `hiddenBlock` and `cellBlock` of the input blocks; the invariant untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (iblk m c 0 t) (iblk m c 1 t) (iblk m c 2 t) (iblk m c 3 t) (iblk m c 4 t) (iblk m c 5 t)
    | ⟨7, _⟩ => cellBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hiddenBlock (iblk m c 0 t) (iblk m c 1 t) (iblk m c 2 t) (iblk m c 3 t) (iblk m c 4 t) (iblk m c 5 t) := by dsimp only [dats]
theorem after0_7 (c : Dev nD) (t : Fin cfg0.N) : (dats m 0 c).after 7 t = cellBlock (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end every array of the region holds what the write-backs
    leave in it and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Cell

end
-- ==== Proof.CellRunIdeal.lean ====
/-
  The run of the fused LSTM-cell program, read at any float instance.

  @main first lays the weights out (for each of the two halves of the contraction axis: the four gates' column
  slices stacked, transposed and narrowed; the four biases joined into one row) and then enters one region whose grid
  has 64 points. At point t the body is handed rows 256 t … 256 t + 255 of x, h and c, the two whole weight
  matrices and the bias row, and stores two blocks of 256 rows, the new hidden state and the new cell state, each
  a pure function of those six blocks. The blocks of different points are disjoint and tile the two result arrays.

  This module states what each output block holds after the body, proves the body's triple, assembles the proof
  data of the region, and runs @main: it terminates, faults nowhere, leaves every argument array as launched, and
  leaves each result array at the blocks' values written back.
-/
import proofs.«165963_j3685081940484_2_alg».proof.Proof.Gen.KernelIdeal.Launch
import proofs.«165963_j3685081940484_2_alg».proof.Proof.Gen.KernelIdeal.Skeleton
import proofs.«165963_j3685081940484_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the sixteen host lines. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every array of the region at its written-back contents and every other buffer as the
    region found it: x, h and c are input arrays of the region (never written back), the weights and biases are
    read by host lines only; none is written by a host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: each buffer whole -/

abbrev rRows : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output buffer -/

/-- The new hidden state's block, from the six input blocks (x, h, c rows; the two weight matrices; the bias row). -/
def hiddenBlock (x0 x1 x2 : Vec F S256x1024 .f32) (x3 x4 : Vec F S1024x4096 .bf16) (x5 : Vec F S1x4096 .f32) : Vec F S256x1024 .f32 :=
  View.canon [⟨rRows, k0_pay3 (View.ld x0 rRows) (View.ld x1 rRows) (View.ld x3 rWeights) (View.ld x4 rWeights) (View.ld x5 rBias) (View.ld x2 rRows)⟩]

/-- The new cell state's block, from the same six blocks. -/
def cellBlock (x0 x1 x2 : Vec F S256x1024 .f32) (x3 x4 : Vec F S1024x4096 .bf16) (x5 : Vec F S1x4096 .f32) : Vec F S256x1024 .f32 :=
  View.canon [⟨rRows, k0_pay2 (View.ld x0 rRows) (View.ld x1 rRows) (View.ld x3 rWeights) (View.ld x4 rWeights) (View.ld x5 rBias) (View.ld x2 rRows)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 4000000 in
/-- The body on whole staging buffers, the six inputs' at contents `xW` and the two outputs' at anything, runs to the
    continuation holding the inputs as they were and the outputs at `hiddenBlock` and `cellBlock` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenBlock x0 x1 x2 x3 x4 x5)
            ∗ owns (c : Thread nD τ) arg8 fullShare (cellBlock x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The region's proof data -/

/-- On core `c`: the arrays as the region finds them; after the body at point `t` each input's buffer at its block,
    the two outputs' at `hiddenBlock` and `cellBlock` of the input blocks; the invariant untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (iblk m c 0 t) (iblk m c 1 t) (iblk m c 2 t) (iblk m c 3 t) (iblk m c 4 t) (iblk m c 5 t)
    | ⟨7, _⟩ => cellBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hiddenBlock (iblk m c 0 t) (iblk m c 1 t) (iblk m c 2 t) (iblk m c 3 t) (iblk m c 4 t) (iblk m c 5 t) := by dsimp only [dats]
theorem after0_7 (c : Dev nD) (t : Fin cfg0.N) : (dats m 0 c).after 7 t = cellBlock (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end every array of the region holds what the write-backs
    leave in it and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Cell

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.CellBody.lean ====
/-
  What the cell kernel's body computes, entry by entry, at exact values.

  From a block of 256 rows of x and of h, the two weight matrices [1024, 4096] (one column per gate and hidden unit)
  and the bias row [1, 4096], the body forms for every row r and column j
      gates(r, j) = sum over k of x(r, k) Wx(k, j) + sum over k of h(r, k) Wh(k, j) + bias(0, j),
  the narrowing of the operands to a shorter float format being the identity on exact values; it then reads the four
  gates off the column blocks [0, 1024), [1024, 2048), [2048, 3072), [3072, 4096):
      c'(r, q) = sigma(gates(r, 1024 + q)) c(r, q) + sigma(gates(r, q)) tanh(gates(r, 2048 + q)),
      h'(r, q) = sigma(gates(r, 3072 + q)) tanh(c'(r, q)).
-/
import proofs.«165963_j3685081940484_2_alg».proof.Proof.Gen.KernelIdeal.Skeleton
import proofs.«165963_j3685081940484_2_alg».proof.Proof.LibMatmulPlain
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.CellBody

open Cert.KernelIdeal Cert.KernelIdeal.Gen
open Idealize.ShloMosaic Idealize.ShloMosaic.ValueIdx

/-- Column q of gate block 0, 1, 2, 3 of the 4096 columns. -/
abbrev col0 (q : Fin 1024) : Fin 4096 := ⟨q.val, by have := q.isLt; omega⟩
abbrev col1 (q : Fin 1024) : Fin 4096 := ⟨1024 + q.val, by have := q.isLt; omega⟩
abbrev col2 (q : Fin 1024) : Fin 4096 := ⟨2048 + q.val, by have := q.isLt; omega⟩
abbrev col3 (q : Fin 1024) : Fin 4096 := ⟨3072 + q.val, by have := q.isLt; omega⟩

/-- One of the body's two products, at row r and column j: the rows' entries against the weights' column. -/
theorem product_apply (l : FVec Ideal S256x1024 .f32) (w : FVec Ideal S1024x4096 .bf16) (r : Fin 256) (j : Fin 4096) :
    matmul dot_S256x1024_S1024x4096_S256x4096_1_0_0_1_n_n none (truncf .bf16 l bitsLt_bf16_f32)
        (shapeCast S1024x4096 w shapeCasts_S1024x4096_S1024x4096) (constant S256x4096 .f32 0x00000000#32) (ix2 r j)
      = ∑ k : Fin 1024, l (ix2 r k) * w (ix2 k j) := by
  rw [shapeCast_self]
  exact (Cert.MatmulPlain.matmul_plain_apply (M := 256) (K := 1024) (N := 4096) dot_S256x1024_S1024x4096_S256x4096_1_0_0_1_n_n
    rfl rfl rfl rfl rfl rfl none (truncf .bf16 l bitsLt_bf16_f32) w r j).trans (Finset.sum_congr rfl fun k _ => rfl)

/-- The bias row broadcast over the block's rows, at row r and column j. -/
theorem bias_row_apply (b : FVec Ideal S1x4096 .f32) (r : Fin 256) (j : Fin 4096) :
    broadcastTo S256x4096 (shapeCast S1x4096 b shapeCasts_S1x4096_S1x4096) broadcasts_S1x4096_S256x4096 (ix2 r j)
      = b (ix2 (0 : Fin 1) j) := by
  rw [shapeCast_self]
  exact broadcastTo_1b_ab_apply (a := 256) (b := 4096) b _ r j

variable (v0 v2 v23 : FVec Ideal S256x1024 .f32) (v4 v7 : FVec Ideal S1024x4096 .bf16) (v11 : FVec Ideal S1x4096 .f32)

/-- All four gates' pre-activations of the block, at row r and column j. -/
theorem gates_apply (r : Fin 256) (j : Fin 4096) :
    k0_pay1 (F := Ideal) v0 v2 v4 v7 v11 (ix2 r j)
      = ((∑ k : Fin 1024, v0 (ix2 r k) * v4 (ix2 k j)) + ∑ k : Fin 1024, v2 (ix2 r k) * v7 (ix2 k j)) + v11 (ix2 (0 : Fin 1) j) := by
  unfold k0_pay1
  exact congrArg₂ (· + ·) (congrArg₂ (· + ·) (product_apply v0 v4 r j) (product_apply v2 v7 r j)) (bias_row_apply v11 r j)

/-- A gate's block of 1024 columns cut out of the 4096, at row r and column q. -/
theorem gate_block_apply (G : FVec Ideal S256x4096 .f32) (o : ℕ) (hs : S256x4096.Slices ![0, o] S256x1024) (r : Fin 256) (q : Fin 1024)
    (j : Fin 4096) (hj : j.val = o + q.val) :
    extractStridedSlice S256x1024 ![0, o] G hs (ix2 r q) = G (ix2 r j) :=
  slice2_axis1_apply (n0 := 256) (n1 := 4096) (m := 1024) o G hs r q j hj

/-- The block's new cell state, at row r and hidden unit q. -/
theorem cell_apply (r : Fin 256) (q : Fin 1024) :
    k0_pay2 (F := Ideal) v0 v2 v4 v7 v11 v23 (ix2 r q)
      = Ideal.logistic (k0_pay1 (F := Ideal) v0 v2 v4 v7 v11 (ix2 r (col1 q))) * v23 (ix2 r q)
        + Ideal.logistic (k0_pay1 (F := Ideal) v0 v2 v4 v7 v11 (ix2 r (col0 q))) * Ideal.tanh (k0_pay1 (F := Ideal) v0 v2 v4 v7 v11 (ix2 r (col2 q))) := by
  unfold k0_pay2
  generalize k0_pay1 (F := Ideal) v0 v2 v4 v7 v11 = G
  have s0 := gate_block_apply G 0 slices_S256x4096_o0_0_S256x1024 r q (col0 q) (by show q.val = 0 + q.val; omega)
  have s1 := gate_block_apply G 1024 slices_S256x4096_o0_1024_S256x1024 r q (col1 q) rfl
  have s2 := gate_block_apply G 2048 slices_S256x4096_o0_2048_S256x1024 r q (col2 q) rfl
  exact congrArg₂ (· + ·) (congrArg (Ideal.logistic · * v23 (ix2 r q)) s1)
    (congrArg₂ (· * ·) (congrArg Ideal.logistic s0) (congrArg Ideal.tanh s2))

/-- The block's new hidden state, at row r and hidden unit q. -/
theorem hidden_apply (r : Fin 256) (q : Fin 1024) :
    k0_pay3 (F := Ideal) v0 v2 v4 v7 v11 v23 (ix2 r q)
      = Ideal.logistic (k0_pay1 (F := Ideal) v0 v2 v4 v7 v11 (ix2 r (col3 q))) * Ideal.tanh (k0_pay2 (F := Ideal) v0 v2 v4 v7 v11 v23 (ix2 r q)) := by
  unfold k0_pay3
  generalize k0_pay1 (F := Ideal) v0 v2 v4 v7 v11 = G
  generalize k0_pay2 (F := Ideal) v0 v2 v4 v7 v11 v23 = C
  have s3 := gate_block_apply G 3072 slices_S256x4096_o0_3072_S256x1024 r q (col3 q) rfl
  exact congrArg (Ideal.logistic · * Ideal.tanh (C (ix2 r q))) s3

end Cert.KernelIdeal.CellBody

end
-- ==== Proof.LibFourPieces.lean ====
/-
  Four pieces joined along one axis, read at an index.

  Four matrices [a, C], [b, C], [c, C], [d, C] stacked along the row axis form [n, C], n = a + b + c + d: row i of the
  first piece is row i of the stack, of the second row a + i, of the third row a + b + i, of the fourth row
  a + b + c + i, every column kept. Four vectors of lengths a, b, c, d joined end to end into a vector of length n:
  entry i of each piece sits at the same offsets. (Four gates' weight matrices stacked into one, and their four bias
  vectors joined into one, are read this way.) The extents' sum is given by an equation, so that a literal n matches
  by rfl. General in the extents and the element type.
-/
import Idealize.ShloMosaic.Lib.Pipeline.Value
import Idealize.ShloMosaic.Lib.ValueIdx

noncomputable section

namespace Cert.FourPieces

open Idealize.ShloMosaic Idealize.ShloMosaic.ValueIdx

variable {α : Type} {C a b c d n : ℕ}

/-- Off the row axis a piece's index and the stack's index have the same coordinate. -/
private theorem same_column {h : ℕ} (i : Fin h) (q : Fin C) (row : Fin n) (bx : Fin 2)
    (hb : bx.cast (rfl : (2 : ℕ) = 2) ≠ (0 : Fin 2)) :
    ((ix2 i q : (⟨2, ![h, C]⟩ : Shape).Idx) bx).val = ((ix2 row q : (⟨2, ![n, C]⟩ : Shape).Idx) (bx.cast rfl)).val := by
  match bx with
  | ⟨0, _⟩ => exact absurd rfl hb
  | ⟨1, _⟩ => rfl

/-- A vector has no axis besides the joined one. -/
private theorem only_axis {w : ℕ} (j : Fin w) (k : Fin n)
    (bx : Fin 1) (hb : bx.cast (rfl : (1 : ℕ) = 1) ≠ (0 : Fin 1)) :
    ((ix1 j : (⟨1, ![w]⟩ : Shape).Idx) bx).val = ((ix1 k : (⟨1, ![n]⟩ : Shape).Idx) (bx.cast rfl)).val := by
  match bx with
  | ⟨0, _⟩ => exact absurd rfl hb

/-! ## Four matrices stacked along the rows -/

/-- Row `i` of the first piece is row `i` of the stack. -/
theorem stack4_0 (h : a + b + c + d = n) (x₀ : (⟨2, ![a, C]⟩ : Shape).Idx → α) (x₁ : (⟨2, ![b, C]⟩ : Shape).Idx → α)
    (x₂ : (⟨2, ![c, C]⟩ : Shape).Idx → α) (x₃ : (⟨2, ![d, C]⟩ : Shape).Idx → α)
    (hcat : Shape.Concatenates [(⟨2, ![a, C]⟩ : Shape), ⟨2, ![b, C]⟩, ⟨2, ![c, C]⟩, ⟨2, ![d, C]⟩] ⟨2, ![n, C]⟩ 0) (i : Fin a) (q : Fin C) :
    concatenate ⟨2, ![n, C]⟩ 0 [⟨⟨2, ![a, C]⟩, x₀⟩, ⟨⟨2, ![b, C]⟩, x₁⟩, ⟨⟨2, ![c, C]⟩, x₂⟩, ⟨⟨2, ![d, C]⟩, x₃⟩] hcat
        (ix2 (⟨i.val, by omega⟩ : Fin n) q) = x₀ (ix2 i q) := by
  have hcat' : Shape.Concatenates
      (([⟨⟨2, ![a, C]⟩, x₀⟩, ⟨⟨2, ![b, C]⟩, x₁⟩, ⟨⟨2, ![c, C]⟩, x₂⟩, ⟨⟨2, ![d, C]⟩, x₃⟩] : List ((s : Shape) × (s.Idx → α))).map (·.1)) ⟨2, ![n, C]⟩ 0 := hcat
  exact concatenate_apply_piece (0 : Fin 2)
    ([⟨⟨2, ![a, C]⟩, x₀⟩, ⟨⟨2, ![b, C]⟩, x₁⟩, ⟨⟨2, ![c, C]⟩, x₂⟩, ⟨⟨2, ![d, C]⟩, x₃⟩] : List ((s : Shape) × (s.Idx → α))) hcat'
    (ix2 (⟨i.val, by omega⟩ : Fin n) q) 0 (by show (0 : ℕ) < 4; omega) ⟨2, ![a, C]⟩ x₀ rfl rfl (0)
    rfl (ix2 i q) (same_column i q _) (by show 0 + i.val = i.val; omega)

/-- Row `i` of the second piece is row `a + i` of the stack. -/
theorem stack4_1 (h : a + b + c + d = n) (x₀ : (⟨2, ![a, C]⟩ : Shape).Idx → α) (x₁ : (⟨2, ![b, C]⟩ : Shape).Idx → α)
    (x₂ : (⟨2, ![c, C]⟩ : Shape).Idx → α) (x₃ : (⟨2, ![d, C]⟩ : Shape).Idx → α)
    (hcat : Shape.Concatenates [(⟨2, ![a, C]⟩ : Shape), ⟨2, ![b, C]⟩, ⟨2, ![c, C]⟩, ⟨2, ![d, C]⟩] ⟨2, ![n, C]⟩ 0) (i : Fin b) (q : Fin C) :
    concatenate ⟨2, ![n, C]⟩ 0 [⟨⟨2, ![a, C]⟩, x₀⟩, ⟨⟨2, ![b, C]⟩, x₁⟩, ⟨⟨2, ![c, C]⟩, x₂⟩, ⟨⟨2, ![d, C]⟩, x₃⟩] hcat
        (ix2 (⟨a + i.val, by omega⟩ : Fin n) q) = x₁ (ix2 i q) := by
  have hcat' : Shape.Concatenates
      (([⟨⟨2, ![a, C]⟩, x₀⟩, ⟨⟨2, ![b, C]⟩, x₁⟩, ⟨⟨2, ![c, C]⟩, x₂⟩, ⟨⟨2, ![d, C]⟩, x₃⟩] : List ((s : Shape) × (s.Idx → α))).map (·.1)) ⟨2, ![n, C]⟩ 0 := hcat
  exact concatenate_apply_piece (0 : Fin 2)
    ([⟨⟨2, ![a, C]⟩, x₀⟩, ⟨⟨2, ![b, C]⟩, x₁⟩, ⟨⟨2, ![c, C]⟩, x₂⟩, ⟨⟨2, ![d, C]⟩, x₃⟩] : List ((s : Shape) × (s.Idx → α))) hcat'
    (ix2 (⟨a + i.val, by omega⟩ : Fin n) q) 1 (by show (1 : ℕ) < 4; omega) ⟨2, ![b, C]⟩ x₁ rfl rfl (a)
    (by show a + 0 = a; omega) (ix2 i q) (same_column i q _) rfl

/-- Row `i` of the third piece is row `a + b + i` of the stack. -/
theorem stack4_2 (h : a + b + c + d = n) (x₀ : (⟨2, ![a, C]⟩ : Shape).Idx → α) (x₁ : (⟨2, ![b, C]⟩ : Shape).Idx → α)
    (x₂ : (⟨2, ![c, C]⟩ : Shape).Idx → α) (x₃ : (⟨2, ![d, C]⟩ : Shape).Idx → α)
    (hcat : Shape.Concatenates [(⟨2, ![a, C]⟩ : Shape), ⟨2, ![b, C]⟩, ⟨2, ![c, C]⟩, ⟨2, ![d, C]⟩] ⟨2, ![n, C]⟩ 0) (i : Fin c) (q : Fin C) :
    concatenate ⟨2, ![n, C]⟩ 0 [⟨⟨2, ![a, C]⟩, x₀⟩, ⟨⟨2, ![b, C]⟩, x₁⟩, ⟨⟨2, ![c, C]⟩, x₂⟩, ⟨⟨2, ![d, C]⟩, x₃⟩] hcat
        (ix2 (⟨a + b + i.val, by omega⟩ : Fin n) q) = x₂ (ix2 i q) := by
  have hcat' : Shape.Concatenates
      (([⟨⟨2, ![a, C]⟩, x₀⟩, ⟨⟨2, ![b, C]⟩, x₁⟩, ⟨⟨2, ![c, C]⟩, x₂⟩, ⟨⟨2, ![d, C]⟩, x₃⟩] : List ((s : Shape) × (s.Idx → α))).map (·.1)) ⟨2, ![n, C]⟩ 0 := hcat
  exact concatenate_apply_piece (0 : Fin 2)
    ([⟨⟨2, ![a, C]⟩, x₀⟩, ⟨⟨2, ![b, C]⟩, x₁⟩, ⟨⟨2, ![c, C]⟩, x₂⟩, ⟨⟨2, ![d, C]⟩, x₃⟩] : List ((s : Shape) × (s.Idx → α))) hcat'
    (ix2 (⟨a + b + i.val, by omega⟩ : Fin n) q) 2 (by show (2 : ℕ) < 4; omega) ⟨2, ![c, C]⟩ x₂ rfl rfl (a + b)
    (by show a + (b + 0) = a + b; omega) (ix2 i q) (same_column i q _) rfl

/-- Row `i` of the fourth piece is row `a + b + c + i` of the stack. -/
theorem stack4_3 (h : a + b + c + d = n) (x₀ : (⟨2, ![a, C]⟩ : Shape).Idx → α) (x₁ : (⟨2, ![b, C]⟩ : Shape).Idx → α)
    (x₂ : (⟨2, ![c, C]⟩ : Shape).Idx → α) (x₃ : (⟨2, ![d, C]⟩ : Shape).Idx → α)
    (hcat : Shape.Concatenates [(⟨2, ![a, C]⟩ : Shape), ⟨2, ![b, C]⟩, ⟨2, ![c, C]⟩, ⟨2, ![d, C]⟩] ⟨2, ![n, C]⟩ 0) (i : Fin d) (q : Fin C) :
    concatenate ⟨2, ![n, C]⟩ 0 [⟨⟨2, ![a, C]⟩, x₀⟩, ⟨⟨2, ![b, C]⟩, x₁⟩, ⟨⟨2, ![c, C]⟩, x₂⟩, ⟨⟨2, ![d, C]⟩, x₃⟩] hcat
        (ix2 (⟨a + b + c + i.val, by omega⟩ : Fin n) q) = x₃ (ix2 i q) := by
  have hcat' : Shape.Concatenates
      (([⟨⟨2, ![a, C]⟩, x₀⟩, ⟨⟨2, ![b, C]⟩, x₁⟩, ⟨⟨2, ![c, C]⟩, x₂⟩, ⟨⟨2, ![d, C]⟩, x₃⟩] : List ((s : Shape) × (s.Idx → α))).map (·.1)) ⟨2, ![n, C]⟩ 0 := hcat
  exact concatenate_apply_piece (0 : Fin 2)
    ([⟨⟨2, ![a, C]⟩, x₀⟩, ⟨⟨2, ![b, C]⟩, x₁⟩, ⟨⟨2, ![c, C]⟩, x₂⟩, ⟨⟨2, ![d, C]⟩, x₃⟩] : List ((s : Shape) × (s.Idx → α))) hcat'
    (ix2 (⟨a + b + c + i.val, by omega⟩ : Fin n) q) 3 (by show (3 : ℕ) < 4; omega) ⟨2, ![d, C]⟩ x₃ rfl rfl (a + b + c)
    (by show a + (b + (c + 0)) = a + b + c; omega) (ix2 i q) (same_column i q _) rfl

/-! ## Four vectors joined end to end -/

/-- Entry `j` of the first vector is entry `j` of the joined vector. -/
theorem catv4_0 (h : a + b + c + d = n) (y₀ : (⟨1, ![a]⟩ : Shape).Idx → α) (y₁ : (⟨1, ![b]⟩ : Shape).Idx → α)
    (y₂ : (⟨1, ![c]⟩ : Shape).Idx → α) (y₃ : (⟨1, ![d]⟩ : Shape).Idx → α)
    (hcat : Shape.Concatenates [(⟨1, ![a]⟩ : Shape), ⟨1, ![b]⟩, ⟨1, ![c]⟩, ⟨1, ![d]⟩] ⟨1, ![n]⟩ 0) (i : Fin a) :
    concatenate ⟨1, ![n]⟩ 0 [⟨⟨1, ![a]⟩, y₀⟩, ⟨⟨1, ![b]⟩, y₁⟩, ⟨⟨1, ![c]⟩, y₂⟩, ⟨⟨1, ![d]⟩, y₃⟩] hcat
        (ix1 (⟨i.val, by omega⟩ : Fin n)) = y₀ (ix1 i) := by
  have hcat' : Shape.Concatenates
      (([⟨⟨1, ![a]⟩, y₀⟩, ⟨⟨1, ![b]⟩, y₁⟩, ⟨⟨1, ![c]⟩, y₂⟩, ⟨⟨1, ![d]⟩, y₃⟩] : List ((s : Shape) × (s.Idx → α))).map (·.1)) ⟨1, ![n]⟩ 0 := hcat
  exact concatenate_apply_piece (0 : Fin 1)
    ([⟨⟨1, ![a]⟩, y₀⟩, ⟨⟨1, ![b]⟩, y₁⟩, ⟨⟨1, ![c]⟩, y₂⟩, ⟨⟨1, ![d]⟩, y₃⟩] : List ((s : Shape) × (s.Idx → α))) hcat'
    (ix1 (⟨i.val, by omega⟩ : Fin n)) 0 (by show (0 : ℕ) < 4; omega) ⟨1, ![a]⟩ y₀ rfl rfl (0)
    rfl (ix1 i) (only_axis i _) (by show 0 + i.val = i.val; omega)

/-- Entry `j` of the second vector is entry `a + j` of the joined vector. -/
theorem catv4_1 (h : a + b + c + d = n) (y₀ : (⟨1, ![a]⟩ : Shape).Idx → α) (y₁ : (⟨1, ![b]⟩ : Shape).Idx → α)
    (y₂ : (⟨1, ![c]⟩ : Shape).Idx → α) (y₃ : (⟨1, ![d]⟩ : Shape).Idx → α)
    (hcat : Shape.Concatenates [(⟨1, ![a]⟩ : Shape), ⟨1, ![b]⟩, ⟨1, ![c]⟩, ⟨1, ![d]⟩] ⟨1, ![n]⟩ 0) (i : Fin b) :
    concatenate ⟨1, ![n]⟩ 0 [⟨⟨1, ![a]⟩, y₀⟩, ⟨⟨1, ![b]⟩, y₁⟩, ⟨⟨1, ![c]⟩, y₂⟩, ⟨⟨1, ![d]⟩, y₃⟩] hcat
        (ix1 (⟨a + i.val, by omega⟩ : Fin n)) = y₁ (ix1 i) := by
  have hcat' : Shape.Concatenates
      (([⟨⟨1, ![a]⟩, y₀⟩, ⟨⟨1, ![b]⟩, y₁⟩, ⟨⟨1, ![c]⟩, y₂⟩, ⟨⟨1, ![d]⟩, y₃⟩] : List ((s : Shape) × (s.Idx → α))).map (·.1)) ⟨1, ![n]⟩ 0 := hcat
  exact concatenate_apply_piece (0 : Fin 1)
    ([⟨⟨1, ![a]⟩, y₀⟩, ⟨⟨1, ![b]⟩, y₁⟩, ⟨⟨1, ![c]⟩, y₂⟩, ⟨⟨1, ![d]⟩, y₃⟩] : List ((s : Shape) × (s.Idx → α))) hcat'
    (ix1 (⟨a + i.val, by omega⟩ : Fin n)) 1 (by show (1 : ℕ) < 4; omega) ⟨1, ![b]⟩ y₁ rfl rfl (a)
    (by show a + 0 = a; omega) (ix1 i) (only_axis i _) rfl

/-- Entry `j` of the third vector is entry `a + b + j` of the joined vector. -/
theorem catv4_2 (h : a + b + c + d = n) (y₀ : (⟨1, ![a]⟩ : Shape).Idx → α) (y₁ : (⟨1, ![b]⟩ : Shape).Idx → α)
    (y₂ : (⟨1, ![c]⟩ : Shape).Idx → α) (y₃ : (⟨1, ![d]⟩ : Shape).Idx → α)
    (hcat : Shape.Concatenates [(⟨1, ![a]⟩ : Shape), ⟨1, ![b]⟩, ⟨1, ![c]⟩, ⟨1, ![d]⟩] ⟨1, ![n]⟩ 0) (i : Fin c) :
    concatenate ⟨1, ![n]⟩ 0 [⟨⟨1, ![a]⟩, y₀⟩, ⟨⟨1, ![b]⟩, y₁⟩, ⟨⟨1, ![c]⟩, y₂⟩, ⟨⟨1, ![d]⟩, y₃⟩] hcat
        (ix1 (⟨a + b + i.val, by omega⟩ : Fin n)) = y₂ (ix1 i) := by
  have hcat' : Shape.Concatenates
      (([⟨⟨1, ![a]⟩, y₀⟩, ⟨⟨1, ![b]⟩, y₁⟩, ⟨⟨1, ![c]⟩, y₂⟩, ⟨⟨1, ![d]⟩, y₃⟩] : List ((s : Shape) × (s.Idx → α))).map (·.1)) ⟨1, ![n]⟩ 0 := hcat
  exact concatenate_apply_piece (0 : Fin 1)
    ([⟨⟨1, ![a]⟩, y₀⟩, ⟨⟨1, ![b]⟩, y₁⟩, ⟨⟨1, ![c]⟩, y₂⟩, ⟨⟨1, ![d]⟩, y₃⟩] : List ((s : Shape) × (s.Idx → α))) hcat'
    (ix1 (⟨a + b + i.val, by omega⟩ : Fin n)) 2 (by show (2 : ℕ) < 4; omega) ⟨1, ![c]⟩ y₂ rfl rfl (a + b)
    (by show a + (b + 0) = a + b; omega) (ix1 i) (only_axis i _) rfl

/-- Entry `j` of the fourth vector is entry `a + b + c + j` of the joined vector. -/
theorem catv4_3 (h : a + b + c + d = n) (y₀ : (⟨1, ![a]⟩ : Shape).Idx → α) (y₁ : (⟨1, ![b]⟩ : Shape).Idx → α)
    (y₂ : (⟨1, ![c]⟩ : Shape).Idx → α) (y₃ : (⟨1, ![d]⟩ : Shape).Idx → α)
    (hcat : Shape.Concatenates [(⟨1, ![a]⟩ : Shape), ⟨1, ![b]⟩, ⟨1, ![c]⟩, ⟨1, ![d]⟩] ⟨1, ![n]⟩ 0) (i : Fin d) :
    concatenate ⟨1, ![n]⟩ 0 [⟨⟨1, ![a]⟩, y₀⟩, ⟨⟨1, ![b]⟩, y₁⟩, ⟨⟨1, ![c]⟩, y₂⟩, ⟨⟨1, ![d]⟩, y₃⟩] hcat
        (ix1 (⟨a + b + c + i.val, by omega⟩ : Fin n)) = y₃ (ix1 i) := by
  have hcat' : Shape.Concatenates
      (([⟨⟨1, ![a]⟩, y₀⟩, ⟨⟨1, ![b]⟩, y₁⟩, ⟨⟨1, ![c]⟩, y₂⟩, ⟨⟨1, ![d]⟩, y₃⟩] : List ((s : Shape) × (s.Idx → α))).map (·.1)) ⟨1, ![n]⟩ 0 := hcat
  exact concatenate_apply_piece (0 : Fin 1)
    ([⟨⟨1, ![a]⟩, y₀⟩, ⟨⟨1, ![b]⟩, y₁⟩, ⟨⟨1, ![c]⟩, y₂⟩, ⟨⟨1, ![d]⟩, y₃⟩] : List ((s : Shape) × (s.Idx → α))) hcat'
    (ix1 (⟨a + b + c + i.val, by omega⟩ : Fin n)) 3 (by show (3 : ℕ) < 4; omega) ⟨1, ![d]⟩ y₃ rfl rfl (a + b + c)
    (by show a + (b + (c + 0)) = a + b + c; omega) (ix1 i) (only_axis i _) rfl

end Cert.FourPieces

end
-- ==== Proof.CellWeights.lean ====
/-
  The weights and the bias as the kernel's region finds them.

  Before the region, @main cuts each gate's weight matrix [1024, 2048] at column 1024 into its input half and its
  recurrent half, stacks the four gates' halves along the rows into [4096, 1024], transposes the stack to
  [1024, 4096] and narrows it (the identity on exact values); and joins the four biases into one vector of 4096,
  read as a row [1, 4096]. So column 1024 g + q of a laid-out half is row q of gate g's matrix restricted to that
  half, and entry 1024 g + q of the bias row is entry q of gate g's bias.
-/
import proofs.«165963_j3685081940484_2_alg».proof.Proof.Gen.KernelIdeal
import proofs.«165963_j3685081940484_2_alg».proof.Proof.LibFourPieces
import Idealize.ShloMosaic.Lib.ValueLayout
import Idealize.ShloMosaic.Lib.Pipeline.Value
import Idealize.ShloMosaic.Lib.ValueIdx

noncomputable section

namespace Cert.KernelIdeal.CellWeights

open Cert.KernelIdeal Cert.KernelIdeal.Gen
open Idealize.ShloMosaic Idealize.ShloMosaic.ValueIdx

variable (a3 a5 a7 a9 : FVec Ideal S1024x2048 .f32) (a4 a6 a8 a10 : FVec Ideal S1024 .f32)

/-- One half of the weights, laid out: from column `o` on (0 for the input half, 1024 for the recurrent half),
    the gates stacked, transposed, narrowed. -/
def weightsT (o : ℕ) (hs : S1024x2048.Slices ![0, o] S1024x1024) : FVec Ideal S1024x4096 .bf16 :=
  truncf .bf16 (transpose S1024x4096 [1, 0]
    (concatenate S4096x1024 0 [⟨S1024x1024, extractStridedSlice S1024x1024 ![0, o] a3 hs⟩, ⟨S1024x1024, extractStridedSlice S1024x1024 ![0, o] a5 hs⟩,
        ⟨S1024x1024, extractStridedSlice S1024x1024 ![0, o] a7 hs⟩, ⟨S1024x1024, extractStridedSlice S1024x1024 ![0, o] a9 hs⟩]
      concatenates_S1024x1024_S1024x1024_S1024x1024_S1024x1024_S4096x1024_d0) transposes_S4096x1024_S1024x4096_1_0) bitsLt_bf16_f32

/-- The four biases joined and read as one row. -/
def biasRow : FVec Ideal S1x4096 .f32 :=
  shapeCast S1x4096 (concatenate S4096 0 [⟨S1024, a4⟩, ⟨S1024, a6⟩, ⟨S1024, a8⟩, ⟨S1024, a10⟩] concatenates_S1024_S1024_S1024_S1024_S4096_d0)
    shapeCasts_S4096_S1x4096

variable (o : ℕ) (hs : S1024x2048.Slices ![0, o] S1024x1024)

/-- Column `q` of the laid-out weights is row `q` of the input gate's matrix, from column `o` on. -/
theorem weightsT_0 (k : Fin 1024) (q : Fin 1024) (j : Fin 4096) (hj : j.val = q.val) (k' : Fin 2048) (hk' : k'.val = o + k.val) :
    weightsT a3 a5 a7 a9 o hs (ix2 k j) = a3 (ix2 q k') := by
  obtain ⟨jv, hjv⟩ := j
  have hj' : jv = q.val := hj
  obtain rfl : jv = q.val := by omega
  unfold weightsT
  refine (truncf_apply _ bitsLt_bf16_f32 _).trans ?_
  refine (transpose_ix2_apply (a := 4096) (b := 1024) _ transposes_S4096x1024_S1024x4096_1_0 k (⟨q.val, hjv⟩ : Fin 4096)).trans ?_
  refine (Cert.FourPieces.stack4_0 (a := 1024) (b := 1024) (c := 1024) (d := 1024) (n := 4096) (C := 1024) rfl _ _ _ _ _ q k).trans ?_
  exact slice2_axis1_apply (n0 := 1024) (n1 := 2048) (m := 1024) o a3 hs q k k' hk'

/-- Entry `q` of the bias row is entry `q` of the input gate's bias. -/
theorem biasRow_0 (q : Fin 1024) (j : Fin 4096) (hj : j.val = q.val) :
    biasRow a4 a6 a8 a10 (ix2 (0 : Fin 1) j) = a4 (ix1 q) := by
  obtain ⟨jv, hjv⟩ := j
  have hj' : jv = q.val := hj
  obtain rfl : jv = q.val := by omega
  unfold biasRow
  refine (shapeCast_a_1a_apply (a := 4096) _ shapeCasts_S4096_S1x4096 (0 : Fin 1) (⟨q.val, hjv⟩ : Fin 4096)).trans ?_
  exact Cert.FourPieces.catv4_0 (a := 1024) (b := 1024) (c := 1024) (d := 1024) (n := 4096) rfl a4 a6 a8 a10 _ q

/-- Column `1024 + q` of the laid-out weights is row `q` of the forget gate's matrix, from column `o` on. -/
theorem weightsT_1 (k : Fin 1024) (q : Fin 1024) (j : Fin 4096) (hj : j.val = 1024 + q.val) (k' : Fin 2048) (hk' : k'.val = o + k.val) :
    weightsT a3 a5 a7 a9 o hs (ix2 k j) = a5 (ix2 q k') := by
  obtain ⟨jv, hjv⟩ := j
  have hj' : jv = 1024 + q.val := hj
  obtain rfl : jv = 1024 + q.val := by omega
  unfold weightsT
  refine (truncf_apply _ bitsLt_bf16_f32 _).trans ?_
  refine (transpose_ix2_apply (a := 4096) (b := 1024) _ transposes_S4096x1024_S1024x4096_1_0 k (⟨1024 + q.val, hjv⟩ : Fin 4096)).trans ?_
  refine (Cert.FourPieces.stack4_1 (a := 1024) (b := 1024) (c := 1024) (d := 1024) (n := 4096) (C := 1024) rfl _ _ _ _ _ q k).trans ?_
  exact slice2_axis1_apply (n0 := 1024) (n1 := 2048) (m := 1024) o a5 hs q k k' hk'

/-- Entry `1024 + q` of the bias row is entry `q` of the forget gate's bias. -/
theorem biasRow_1 (q : Fin 1024) (j : Fin 4096) (hj : j.val = 1024 + q.val) :
    biasRow a4 a6 a8 a10 (ix2 (0 : Fin 1) j) = a6 (ix1 q) := by
  obtain ⟨jv, hjv⟩ := j
  have hj' : jv = 1024 + q.val := hj
  obtain rfl : jv = 1024 + q.val := by omega
  unfold biasRow
  refine (shapeCast_a_1a_apply (a := 4096) _ shapeCasts_S4096_S1x4096 (0 : Fin 1) (⟨1024 + q.val, hjv⟩ : Fin 4096)).trans ?_
  exact Cert.FourPieces.catv4_1 (a := 1024) (b := 1024) (c := 1024) (d := 1024) (n := 4096) rfl a4 a6 a8 a10 _ q

/-- Column `1024 + 1024 + q` of the laid-out weights is row `q` of the candidate gate's matrix, from column `o` on. -/
theorem weightsT_2 (k : Fin 1024) (q : Fin 1024) (j : Fin 4096) (hj : j.val = 2048 + q.val) (k' : Fin 2048) (hk' : k'.val = o + k.val) :
    weightsT a3 a5 a7 a9 o hs (ix2 k j) = a7 (ix2 q k') := by
  obtain ⟨jv, hjv⟩ := j
  have hj' : jv = 2048 + q.val := hj
  obtain rfl : jv = 1024 + 1024 + q.val := by omega
  unfold weightsT
  refine (truncf_apply _ bitsLt_bf16_f32 _).trans ?_
  refine (transpose_ix2_apply (a := 4096) (b := 1024) _ transposes_S4096x1024_S1024x4096_1_0 k (⟨1024 + 1024 + q.val, hjv⟩ : Fin 4096)).trans ?_
  refine (Cert.FourPieces.stack4_2 (a := 1024) (b := 1024) (c := 1024) (d := 1024) (n := 4096) (C := 1024) rfl _ _ _ _ _ q k).trans ?_
  exact slice2_axis1_apply (n0 := 1024) (n1 := 2048) (m := 1024) o a7 hs q k k' hk'

/-- Entry `1024 + 1024 + q` of the bias row is entry `q` of the candidate gate's bias. -/
theorem biasRow_2 (q : Fin 1024) (j : Fin 4096) (hj : j.val = 2048 + q.val) :
    biasRow a4 a6 a8 a10 (ix2 (0 : Fin 1) j) = a8 (ix1 q) := by
  obtain ⟨jv, hjv⟩ := j
  have hj' : jv = 2048 + q.val := hj
  obtain rfl : jv = 1024 + 1024 + q.val := by omega
  unfold biasRow
  refine (shapeCast_a_1a_apply (a := 4096) _ shapeCasts_S4096_S1x4096 (0 : Fin 1) (⟨1024 + 1024 + q.val, hjv⟩ : Fin 4096)).trans ?_
  exact Cert.FourPieces.catv4_2 (a := 1024) (b := 1024) (c := 1024) (d := 1024) (n := 4096) rfl a4 a6 a8 a10 _ q

/-- Column `1024 + 1024 + 1024 + q` of the laid-out weights is row `q` of the output gate's matrix, from column `o` on. -/
theorem weightsT_3 (k : Fin 1024) (q : Fin 1024) (j : Fin 4096) (hj : j.val = 3072 + q.val) (k' : Fin 2048) (hk' : k'.val = o + k.val) :
    weightsT a3 a5 a7 a9 o hs (ix2 k j) = a9 (ix2 q k') := by
  obtain ⟨jv, hjv⟩ := j
  have hj' : jv = 3072 + q.val := hj
  obtain rfl : jv = 1024 + 1024 + 1024 + q.val := by omega
  unfold weightsT
  refine (truncf_apply _ bitsLt_bf16_f32 _).trans ?_
  refine (transpose_ix2_apply (a := 4096) (b := 1024) _ transposes_S4096x1024_S1024x4096_1_0 k (⟨1024 + 1024 + 1024 + q.val, hjv⟩ : Fin 4096)).trans ?_
  refine (Cert.FourPieces.stack4_3 (a := 1024) (b := 1024) (c := 1024) (d := 1024) (n := 4096) (C := 1024) rfl _ _ _ _ _ q k).trans ?_
  exact slice2_axis1_apply (n0 := 1024) (n1 := 2048) (m := 1024) o a9 hs q k k' hk'

/-- Entry `1024 + 1024 + 1024 + q` of the bias row is entry `q` of the output gate's bias. -/
theorem biasRow_3 (q : Fin 1024) (j : Fin 4096) (hj : j.val = 3072 + q.val) :
    biasRow a4 a6 a8 a10 (ix2 (0 : Fin 1) j) = a10 (ix1 q) := by
  obtain ⟨jv, hjv⟩ := j
  have hj' : jv = 3072 + q.val := hj
  obtain rfl : jv = 1024 + 1024 + 1024 + q.val := by omega
  unfold biasRow
  refine (shapeCast_a_1a_apply (a := 4096) _ shapeCasts_S4096_S1x4096 (0 : Fin 1) (⟨1024 + 1024 + 1024 + q.val, hjv⟩ : Fin 4096)).trans ?_
  exact Cert.FourPieces.catv4_3 (a := 1024) (b := 1024) (c := 1024) (d := 1024) (n := 4096) rfl a4 a6 a8 a10 _ q

end Cert.KernelIdeal.CellWeights

end
-- ==== Proof.LibBesideTwo.lean ====
/-
  TWO MATRICES SET SIDE BY SIDE, read at an index. `[R, a]` and `[R, b]` concatenated along the column axis into
  `[R, n]`, with `a + b = n` given by an equation (pass `rfl` for a literal `n`): column `j` of the first piece is
  column `j` of the result, column `j` of the second is column `a + j`. With it, a contraction over the `n` columns
  of the concatenation splits into the contraction over the first piece's columns plus that over the second's
  (`sum_two_runs`): how `concat([x, y], axis = 1) @ W` meets `x @ W[:a] + y @ W[a:]`. General in the extents and the
  element type. (Library imports only.)
-/
import Idealize.ShloMosaic.Lib.Pipeline.Value
import Idealize.ShloMosaic.Lib.ValueIdx

noncomputable section

namespace Cert.BesideTwo

open Idealize.ShloMosaic Idealize.ShloMosaic.ValueIdx

variable {α : Type}

/-- Column `j` of the first piece is column `j` of the concatenation. -/
theorem cat2_left {R a b n : ℕ} (hn : a + b = n) (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ 1) (r : Fin R) (j : Fin a) :
    concatenate ⟨2, ![R, n]⟩ 1 [⟨⟨2, ![R, a]⟩, x⟩, ⟨⟨2, ![R, b]⟩, y⟩] h (ix2 r (⟨j.val, by omega⟩ : Fin n)) = x (ix2 r j) :=
  concatenate_pair_apply_left (t := ⟨2, ![R, n]⟩) (s₁ := ⟨2, ![R, a]⟩) (s₂ := ⟨2, ![R, b]⟩) (1 : Fin 2) x y h
    (ix2 r (⟨j.val, by omega⟩ : Fin n)) rfl (ix2 r j) fun c => match c with | ⟨0, _⟩ => rfl | ⟨1, _⟩ => rfl

/-- Column `j` of the second piece is column `a + j` of the concatenation. -/
theorem cat2_right {R a b n : ℕ} (hn : a + b = n) (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ 1) (r : Fin R) (j : Fin b) :
    concatenate ⟨2, ![R, n]⟩ 1 [⟨⟨2, ![R, a]⟩, x⟩, ⟨⟨2, ![R, b]⟩, y⟩] h (ix2 r (⟨a + j.val, by omega⟩ : Fin n)) = y (ix2 r j) :=
  concatenate_pair_apply_right (t := ⟨2, ![R, n]⟩) (s₁ := ⟨2, ![R, a]⟩) (s₂ := ⟨2, ![R, b]⟩) (1 : Fin 2) x y h
    (ix2 r (⟨a + j.val, by omega⟩ : Fin n)) rfl rfl (ix2 r j)
    (fun c hc => match c, hc with | ⟨0, _⟩, _ => rfl | ⟨1, _⟩, hc => absurd rfl hc)
    (by show j.val + a = a + j.val; omega)

/-- A sum over `Fin n`, `n = a + b`, is the sum over the first `a` indices plus the sum over the last `b`. -/
theorem sum_two_runs {M : Type} [AddCommMonoid M] {a b n : ℕ} (hn : a + b = n) (f : Fin n → M) :
    ∑ k : Fin n, f k = (∑ k : Fin a, f ⟨k.val, by omega⟩) + ∑ k : Fin b, f ⟨a + k.val, by omega⟩ := by
  subst hn
  exact Fin.sum_univ_add f

end Cert.BesideTwo

end
-- ==== Proof.CellSpec.lean ====
/-
  One step of an LSTM cell at exact values.

  For a batch row p and a hidden unit q, each of the four gates has the pre-activation
      pre(p, q) = sum over k of x(p, k) W(q, k)  +  sum over k of h(p, k) W(q, 1024 + k)  +  b(q),
  its weight matrix W : [1024, 2048] acting on the input x with its first 1024 columns and on the previous hidden
  state h with its last 1024. With sigma the logistic function,
      c'(p, q) = sigma(pre_f) c(p, q) + sigma(pre_i) tanh(pre_g),        h'(p, q) = sigma(pre_o) tanh(c'(p, q)).
  All of it on the extended reals: sums, products, the logistic function and tanh are total there, and the two forms
  of the pre-activation below are equal by splitting a finite sum in two runs and renaming its terms, which needs no
  finiteness.

  The pre-activation is met in two arrangements: the contraction over the 2048 columns of x and h set side by side
  against one stacked, transposed weight matrix (`pre_of_joined`), and two contractions over 1024 columns each,
  against the two halves of the weights, on a block of rows (`pre_of_blocks`).
-/
import Idealize.ShloMosaic.PureOps.Ideal
import Idealize.ShloMosaic.Lib.ValueIdx
import proofs.«165963_j3685081940484_2_alg».proof.Proof.LibBesideTwo

noncomputable section

open scoped BigOperators

namespace Cert.CellSpec

open Idealize.ShloMosaic Idealize.ShloMosaic.ValueIdx

/-- x, h, c and the two results: 16384 batch rows of 1024 entries. -/
abbrev Rows : Shape := ⟨2, ![16384, 1024]⟩
/-- One gate's weights: 1024 hidden units, each a row of 1024 input weights followed by 1024 recurrent weights. -/
abbrev Wts : Shape := ⟨2, ![1024, 2048]⟩
/-- One gate's bias. -/
abbrev Bias : Shape := ⟨1, ![1024]⟩

/-- Column k of a weight row, in its input half. -/
abbrev lo (k : Fin 1024) : Fin 2048 := ⟨k.val, by have := k.isLt; omega⟩
/-- Column k of a weight row's recurrent half. -/
abbrev hi (k : Fin 1024) : Fin 2048 := ⟨1024 + k.val, by have := k.isLt; omega⟩

/-- A gate's pre-activation at batch row `p` and hidden unit `q`. -/
def pre (x h : Rows.Idx → EReal) (W : Wts.Idx → EReal) (b : Bias.Idx → EReal) (p : Fin 16384) (q : Fin 1024) : EReal :=
  ((∑ k : Fin 1024, x (ix2 p k) * W (ix2 q (lo k))) + ∑ k : Fin 1024, h (ix2 p k) * W (ix2 q (hi k))) + b (ix1 q)

/-- The new cell state at `(p, q)`. -/
def cellNew (x h c : Rows.Idx → EReal) (Wi : Wts.Idx → EReal) (bi : Bias.Idx → EReal) (Wf : Wts.Idx → EReal) (bf : Bias.Idx → EReal)
    (Wg : Wts.Idx → EReal) (bg : Bias.Idx → EReal) (p : Fin 16384) (q : Fin 1024) : EReal :=
  Ideal.logistic (pre x h Wf bf p q) * c (ix2 p q) + Ideal.logistic (pre x h Wi bi p q) * Ideal.tanh (pre x h Wg bg p q)

/-- The new hidden state at `(p, q)`. -/
def hiddenNew (x h c : Rows.Idx → EReal) (Wi : Wts.Idx → EReal) (bi : Bias.Idx → EReal) (Wf : Wts.Idx → EReal) (bf : Bias.Idx → EReal)
    (Wg : Wts.Idx → EReal) (bg : Bias.Idx → EReal) (Wo : Wts.Idx → EReal) (bo : Bias.Idx → EReal) (p : Fin 16384) (q : Fin 1024) : EReal :=
  Ideal.logistic (pre x h Wo bo p q) * Ideal.tanh (cellNew x h c Wi bi Wf bf Wg bg p q)

/-- The new cell state as an array. -/
def cellArr (x h c : Rows.Idx → EReal) (Wi : Wts.Idx → EReal) (bi : Bias.Idx → EReal) (Wf : Wts.Idx → EReal) (bf : Bias.Idx → EReal)
    (Wg : Wts.Idx → EReal) (bg : Bias.Idx → EReal) : Rows.Idx → EReal :=
  fun i => cellNew x h c Wi bi Wf bf Wg bg ⟨(i 0).val, (i 0).isLt⟩ ⟨(i 1).val, (i 1).isLt⟩

/-- The new hidden state as an array. -/
def hiddenArr (x h c : Rows.Idx → EReal) (Wi : Wts.Idx → EReal) (bi : Bias.Idx → EReal) (Wf : Wts.Idx → EReal) (bf : Bias.Idx → EReal)
    (Wg : Wts.Idx → EReal) (bg : Bias.Idx → EReal) (Wo : Wts.Idx → EReal) (bo : Bias.Idx → EReal) : Rows.Idx → EReal :=
  fun i => hiddenNew x h c Wi bi Wf bf Wg bg Wo bo ⟨(i 0).val, (i 0).isLt⟩ ⟨(i 1).val, (i 1).isLt⟩

theorem cellArr_ix2 (x h c : Rows.Idx → EReal) (Wi : Wts.Idx → EReal) (bi : Bias.Idx → EReal) (Wf : Wts.Idx → EReal) (bf : Bias.Idx → EReal)
    (Wg : Wts.Idx → EReal) (bg : Bias.Idx → EReal) (p : Fin 16384) (q : Fin 1024) :
    cellArr x h c Wi bi Wf bf Wg bg (ix2 p q) = cellNew x h c Wi bi Wf bf Wg bg p q := rfl

theorem hiddenArr_ix2 (x h c : Rows.Idx → EReal) (Wi : Wts.Idx → EReal) (bi : Bias.Idx → EReal) (Wf : Wts.Idx → EReal) (bf : Bias.Idx → EReal)
    (Wg : Wts.Idx → EReal) (bg : Bias.Idx → EReal) (Wo : Wts.Idx → EReal) (bo : Bias.Idx → EReal) (p : Fin 16384) (q : Fin 1024) :
    hiddenArr x h c Wi bi Wf bf Wg bg Wo bo (ix2 p q) = hiddenNew x h c Wi bi Wf bf Wg bg Wo bo p q := rfl

/-- One contraction over 2048 columns: against a row `xh` that is x's row followed by h's row, and a column `WT (·, j)`
    that is the gate's weight row q, plus the bias: the sum splits at column 1024. -/
theorem pre_of_joined (x h : Rows.Idx → EReal) (W : Wts.Idx → EReal) (b : Bias.Idx → EReal)
    (xh : (⟨2, ![16384, 2048]⟩ : Shape).Idx → EReal) (WT : (⟨2, ![2048, 4096]⟩ : Shape).Idx → EReal) (bv : EReal)
    (p : Fin 16384) (q : Fin 1024) (j : Fin 4096)
    (hx : ∀ k : Fin 1024, xh (ix2 p (lo k)) = x (ix2 p k)) (hh : ∀ k : Fin 1024, xh (ix2 p (hi k)) = h (ix2 p k))
    (hW : ∀ k : Fin 2048, WT (ix2 k j) = W (ix2 q k)) (hb : bv = b (ix1 q)) :
    (∑ k : Fin 2048, xh (ix2 p k) * WT (ix2 k j)) + bv = pre x h W b p q := by
  rw [Cert.BesideTwo.sum_two_runs (a := 1024) (b := 1024) (n := 2048) rfl]
  unfold pre
  rw [hb]
  refine congrArg (· + b (ix1 q)) (congrArg₂ (· + ·) ?_ ?_)
  · exact Finset.sum_congr rfl fun k _ => by rw [hW]; exact congrArg (· * _) (hx k)
  · exact Finset.sum_congr rfl fun k _ => by rw [hW]; exact congrArg (· * _) (hh k)

/-- Two contractions over 1024 columns each, on a block of rows: row r of the block is batch row p, the two weight
    columns `WxT (·, j)`, `WhT (·, j)` are the two halves of the gate's weight row q. -/
theorem pre_of_blocks (x h : Rows.Idx → EReal) (W : Wts.Idx → EReal) (b : Bias.Idx → EReal)
    (xb hb : (⟨2, ![256, 1024]⟩ : Shape).Idx → EReal) (WxT WhT : (⟨2, ![1024, 4096]⟩ : Shape).Idx → EReal) (bv : EReal)
    (r : Fin 256) (p : Fin 16384) (q : Fin 1024) (j : Fin 4096)
    (hx : ∀ k : Fin 1024, xb (ix2 r k) = x (ix2 p k)) (hh : ∀ k : Fin 1024, hb (ix2 r k) = h (ix2 p k))
    (hWx : ∀ k : Fin 1024, WxT (ix2 k j) = W (ix2 q (lo k))) (hWh : ∀ k : Fin 1024, WhT (ix2 k j) = W (ix2 q (hi k)))
    (hbv : bv = b (ix1 q)) :
    ((∑ k : Fin 1024, xb (ix2 r k) * WxT (ix2 k j)) + ∑ k : Fin 1024, hb (ix2 r k) * WhT (ix2 k j)) + bv = pre x h W b p q := by
  unfold pre
  rw [hbv]
  refine congrArg (· + b (ix1 q)) (congrArg₂ (· + ·) ?_ ?_)
  · exact Finset.sum_congr rfl fun k _ => by rw [hx, hWx]
  · exact Finset.sum_congr rfl fun k _ => by rw [hh, hWh]

end Cert.CellSpec

end
-- ==== Proof.CellArrays.lean ====
/-
  The kernel's two result arrays are the LSTM cell's new hidden state and new cell state.

  At grid point t the body's inputs are rows 256 t … 256 t + 255 of x, h and c, the two laid-out halves of the weights
  whole, and the bias row whole. So entry (r, q) of what the point writes back is the cell's value at batch row
  256 t + r and hidden unit q: the block's two products are the two halves of each gate's contraction, column
  1024 g + q of the laid-out weights being gate g's row q. The 64 blocks of 256 rows tile the 16384 rows, row i lying
  in the block of point i / 256, so each result array ends at the cell's value everywhere.
-/
import proofs.«165963_j3685081940484_2_alg».proof.Proof.CellRunIdeal
import proofs.«165963_j3685081940484_2_alg».proof.Proof.CellBody
import proofs.«165963_j3685081940484_2_alg».proof.Proof.CellWeights
import proofs.«165963_j3685081940484_2_alg».proof.Proof.CellSpec
import Idealize.ShloMosaic.Lib.StableHlo.Run

set_option maxRecDepth 16384

noncomputable section

open scoped BigOperators

namespace Cert.KernelIdeal.CellValue

open Cert.KernelIdeal Cert.KernelIdeal.Gen Cert.KernelIdeal.Cell Cert.KernelIdeal.CellBody Cert.KernelIdeal.CellWeights Cert.CellSpec
open Idealize.ShloMosaic Idealize.ShloMosaic.TcCoe Idealize.ShloMosaic.ValueIdx
open Idealize.SL Idealize.SL.Sem
open Idealize.ShloMosaic.Pipeline (Dat)

/-! ## One entry of a block, from rows of the arrays -/

/-- The block's new cell state at `(r, q)` is the cell's at batch row `p`, when the block's rows r of x, h, c are the
    arrays' rows p and its weights and bias are the laid-out ones. -/
theorem cell_point (x h c : FVec Ideal S16384x1024 .f32) (Wi : FVec Ideal S1024x2048 .f32) (bi : FVec Ideal S1024 .f32) (Wf : FVec Ideal S1024x2048 .f32) (bf : FVec Ideal S1024 .f32)
    (Wg : FVec Ideal S1024x2048 .f32) (bg : FVec Ideal S1024 .f32) (Wo : FVec Ideal S1024x2048 .f32) (bo : FVec Ideal S1024 .f32)
    (v0 v2 v23 : FVec Ideal S256x1024 .f32) (v4 v7 : FVec Ideal S1024x4096 .bf16) (v11 : FVec Ideal S1x4096 .f32)
    (r : Fin 256) (q : Fin 1024) (p : Fin 16384)
    (h0 : ∀ k, v0 (ix2 r k) = x (ix2 p k)) (h2 : ∀ k, v2 (ix2 r k) = h (ix2 p k)) (h23 : v23 (ix2 r q) = c (ix2 p q))
    (h4 : v4 = weightsT Wi Wf Wg Wo 0 slices_S1024x2048_S1024x1024_0_0) (h7 : v7 = weightsT Wi Wf Wg Wo 1024 slices_S1024x2048_S1024x1024_0_1024)
    (h11 : v11 = biasRow bi bf bg bo) :
    k0_pay2 (F := Ideal) v0 v2 v4 v7 v11 v23 (ix2 r q) = cellNew x h c Wi bi Wf bf Wg bg p q := by
  subst h4 h7 h11
  have e0 := (gates_apply v0 v2 (weightsT Wi Wf Wg Wo 0 slices_S1024x2048_S1024x1024_0_0) (weightsT Wi Wf Wg Wo 1024 slices_S1024x2048_S1024x1024_0_1024) (biasRow bi bf bg bo) r (col0 q)).trans
    (pre_of_blocks x h Wi bi v0 v2 _ _ _ r p q (col0 q) h0 h2
      (fun k => weightsT_0 Wi Wf Wg Wo 0 slices_S1024x2048_S1024x1024_0_0 k q (col0 q) rfl (lo k) (by show k.val = 0 + k.val; omega))
      (fun k => weightsT_0 Wi Wf Wg Wo 1024 slices_S1024x2048_S1024x1024_0_1024 k q (col0 q) rfl (hi k) rfl)
      (biasRow_0 bi bf bg bo q (col0 q) rfl))
  have e1 := (gates_apply v0 v2 (weightsT Wi Wf Wg Wo 0 slices_S1024x2048_S1024x1024_0_0) (weightsT Wi Wf Wg Wo 1024 slices_S1024x2048_S1024x1024_0_1024) (biasRow bi bf bg bo) r (col1 q)).trans
    (pre_of_blocks x h Wf bf v0 v2 _ _ _ r p q (col1 q) h0 h2
      (fun k => weightsT_1 Wi Wf Wg Wo 0 slices_S1024x2048_S1024x1024_0_0 k q (col1 q) rfl (lo k) (by show k.val = 0 + k.val; omega))
      (fun k => weightsT_1 Wi Wf Wg Wo 1024 slices_S1024x2048_S1024x1024_0_1024 k q (col1 q) rfl (hi k) rfl)
      (biasRow_1 bi bf bg bo q (col1 q) rfl))
  have e2 := (gates_apply v0 v2 (weightsT Wi Wf Wg Wo 0 slices_S1024x2048_S1024x1024_0_0) (weightsT Wi Wf Wg Wo 1024 slices_S1024x2048_S1024x1024_0_1024) (biasRow bi bf bg bo) r (col2 q)).trans
    (pre_of_blocks x h Wg bg v0 v2 _ _ _ r p q (col2 q) h0 h2
      (fun k => weightsT_2 Wi Wf Wg Wo 0 slices_S1024x2048_S1024x1024_0_0 k q (col2 q) rfl (lo k) (by show k.val = 0 + k.val; omega))
      (fun k => weightsT_2 Wi Wf Wg Wo 1024 slices_S1024x2048_S1024x1024_0_1024 k q (col2 q) rfl (hi k) rfl)
      (biasRow_2 bi bf bg bo q (col2 q) rfl))
  rw [cell_apply, e0, e1, e2, h23]
  rfl

/-- The block's new hidden state at `(r, q)` is the cell's at batch row `p`, under the same hypotheses. -/
theorem hidden_point (x h c : FVec Ideal S16384x1024 .f32) (Wi : FVec Ideal S1024x2048 .f32) (bi : FVec Ideal S1024 .f32) (Wf : FVec Ideal S1024x2048 .f32) (bf : FVec Ideal S1024 .f32)
    (Wg : FVec Ideal S1024x2048 .f32) (bg : FVec Ideal S1024 .f32) (Wo : FVec Ideal S1024x2048 .f32) (bo : FVec Ideal S1024 .f32)
    (v0 v2 v23 : FVec Ideal S256x1024 .f32) (v4 v7 : FVec Ideal S1024x4096 .bf16) (v11 : FVec Ideal S1x4096 .f32)
    (r : Fin 256) (q : Fin 1024) (p : Fin 16384)
    (h0 : ∀ k, v0 (ix2 r k) = x (ix2 p k)) (h2 : ∀ k, v2 (ix2 r k) = h (ix2 p k)) (h23 : v23 (ix2 r q) = c (ix2 p q))
    (h4 : v4 = weightsT Wi Wf Wg Wo 0 slices_S1024x2048_S1024x1024_0_0) (h7 : v7 = weightsT Wi Wf Wg Wo 1024 slices_S1024x2048_S1024x1024_0_1024)
    (h11 : v11 = biasRow bi bf bg bo) :
    k0_pay3 (F := Ideal) v0 v2 v4 v7 v11 v23 (ix2 r q) = hiddenNew x h c Wi bi Wf bf Wg bg Wo bo p q := by
  have ec := cell_point x h c Wi bi Wf bf Wg bg Wo bo v0 v2 v23 v4 v7 v11 r q p h0 h2 h23 h4 h7 h11
  subst h4 h7 h11
  have e3 := (gates_apply v0 v2 (weightsT Wi Wf Wg Wo 0 slices_S1024x2048_S1024x1024_0_0) (weightsT Wi Wf Wg Wo 1024 slices_S1024x2048_S1024x1024_0_1024) (biasRow bi bf bg bo) r (col3 q)).trans
    (pre_of_blocks x h Wo bo v0 v2 _ _ _ r p q (col3 q) h0 h2
      (fun k => weightsT_3 Wi Wf Wg Wo 0 slices_S1024x2048_S1024x1024_0_0 k q (col3 q) rfl (lo k) (by show k.val = 0 + k.val; omega))
      (fun k => weightsT_3 Wi Wf Wg Wo 1024 slices_S1024x2048_S1024x1024_0_1024 k q (col3 q) rfl (hi k) rfl)
      (biasRow_3 bi bf bg bo q (col3 q) rfl))
  rw [hidden_apply, e3, ec]
  rfl

variable (m : (ℓ : Loc nD τ sig) → Buf (Elt Ideal) ℓ) (ρ : Dev nD → PrngReg)

/-! ## The grid: which rows a point is handed -/

theorem hz : (![0, 0] : Fin 2 → Nat) = fun _ => 0 := funext fun a => by fin_cases a <;> rfl

/-- The index maps, decided over the 64 points: the row windows (x, h, c and the two results) move to block t at
    point t, the weights' and the bias's windows stay at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0 :=
  (by decide +kernel : ∀ t : Fin grid0.N, _)

/-- Batch row of row `r` of point `t`'s block. -/
def rowOf (t : Fin cfg0.N) (r : Fin 256) : Fin 16384 :=
  ⟨256 * t.val + r.val, by have h := t.isLt; have hN : cfg0.N = 64 := N_0; have := r.isLt; omega⟩

/-- Row `r` of point `t`'s block of x is batch row `256 t + r`. -/
theorem x_row (c : Dev nD) (t : Fin cfg0.N) (r : Fin 256) (k : Fin 1024) :
    iblk m c 0 t (ix2 r k) = m ((c : Thread nD τ).loc main_arg0) (ix2 (rowOf t r) k) := by
  show V m c main_arg0 (((cfg0.win 0).blk t).view.emb (ix2 r k)) = _
  rw [V_main_arg0]
  refine congrArg _ (funext fun a => Fin.ext ?_)
  obtain ⟨e0_0, e0_1, e1_0, e1_1, e2_0, e2_1, e6_0, e6_1, e7_0, e7_1, e3_0, e3_1, e4_0, e4_1, e5_0, e5_1⟩ := idx_facts t
  match a with
  | ⟨0, _⟩ => show win0_0.index t (0 : Fin 2) * 256 + 1 * r.val = 256 * t.val + r.val; rw [e0_0]; omega
  | ⟨1, _⟩ => show win0_0.index t (1 : Fin 2) * 1024 + 1 * k.val = k.val; rw [e0_1]; omega

/-- Row `r` of point `t`'s block of h is batch row `256 t + r`. -/
theorem h_row (c : Dev nD) (t : Fin cfg0.N) (r : Fin 256) (k : Fin 1024) :
    iblk m c 1 t (ix2 r k) = m ((c : Thread nD τ).loc main_arg1) (ix2 (rowOf t r) k) := by
  show V m c main_arg1 (((cfg0.win 1).blk t).view.emb (ix2 r k)) = _
  rw [V_main_arg1]
  refine congrArg _ (funext fun a => Fin.ext ?_)
  obtain ⟨e0_0, e0_1, e1_0, e1_1, e2_0, e2_1, e6_0, e6_1, e7_0, e7_1, e3_0, e3_1, e4_0, e4_1, e5_0, e5_1⟩ := idx_facts t
  match a with
  | ⟨0, _⟩ => show win0_1.index t (0 : Fin 2) * 256 + 1 * r.val = 256 * t.val + r.val; rw [e1_0]; omega
  | ⟨1, _⟩ => show win0_1.index t (1 : Fin 2) * 1024 + 1 * k.val = k.val; rw [e1_1]; omega

/-- Entry `(r, q)` of point `t`'s block of c is c at batch row `256 t + r`. -/
theorem c_row (c : Dev nD) (t : Fin cfg0.N) (r : Fin 256) (q : Fin 1024) :
    iblk m c 2 t (ix2 r q) = m ((c : Thread nD τ).loc main_arg2) (ix2 (rowOf t r) q) := by
  show V m c main_arg2 (((cfg0.win 2).blk t).view.emb (ix2 r q)) = _
  rw [V_main_arg2]
  refine congrArg _ (funext fun a => Fin.ext ?_)
  obtain ⟨e0_0, e0_1, e1_0, e1_1, e2_0, e2_1, e6_0, e6_1, e7_0, e7_1, e3_0, e3_1, e4_0, e4_1, e5_0, e5_1⟩ := idx_facts t
  match a with
  | ⟨0, _⟩ => show win0_2.index t (0 : Fin 2) * 256 + 1 * r.val = 256 * t.val + r.val; rw [e2_0]; omega
  | ⟨1, _⟩ => show win0_2.index t (1 : Fin 2) * 1024 + 1 * q.val = q.val; rw [e2_1]; omega

/-- Every point's block of weightsx is the whole array. -/
theorem weightsx_block (c : Dev nD) (t : Fin cfg0.N) : iblk m c 3 t = V m c main_v11 := by
  funext y
  show V m c main_v11 (((cfg0.win 3).blk t).view.emb y) = V m c main_v11 y
  refine congrArg _ (funext fun a => Fin.ext ?_)
  obtain ⟨e0_0, e0_1, e1_0, e1_1, e2_0, e2_1, e6_0, e6_1, e7_0, e7_1, e3_0, e3_1, e4_0, e4_1, e5_0, e5_1⟩ := idx_facts t
  match a with
  | ⟨0, _⟩ => show win0_3.index t (0 : Fin 2) * 1024 + 1 * (y 0).val = (y 0).val; rw [e3_0]; omega
  | ⟨1, _⟩ => show win0_3.index t (1 : Fin 2) * 4096 + 1 * (y 1).val = (y 1).val; rw [e3_1]; omega

/-- Every point's block of weightsh is the whole array. -/
theorem weightsh_block (c : Dev nD) (t : Fin cfg0.N) : iblk m c 4 t = V m c main_v13 := by
  funext y
  show V m c main_v13 (((cfg0.win 4).blk t).view.emb y) = V m c main_v13 y
  refine congrArg _ (funext fun a => Fin.ext ?_)
  obtain ⟨e0_0, e0_1, e1_0, e1_1, e2_0, e2_1, e6_0, e6_1, e7_0, e7_1, e3_0, e3_1, e4_0, e4_1, e5_0, e5_1⟩ := idx_facts t
  match a with
  | ⟨0, _⟩ => show win0_4.index t (0 : Fin 2) * 1024 + 1 * (y 0).val = (y 0).val; rw [e4_0]; omega
  | ⟨1, _⟩ => show win0_4.index t (1 : Fin 2) * 4096 + 1 * (y 1).val = (y 1).val; rw [e4_1]; omega

/-- Every point's block of bias is the whole array. -/
theorem bias_block (c : Dev nD) (t : Fin cfg0.N) : iblk m c 5 t = V m c main_v15 := by
  funext y
  show V m c main_v15 (((cfg0.win 5).blk t).view.emb y) = V m c main_v15 y
  refine congrArg _ (funext fun a => Fin.ext ?_)
  obtain ⟨e0_0, e0_1, e1_0, e1_1, e2_0, e2_1, e6_0, e6_1, e7_0, e7_1, e3_0, e3_1, e4_0, e4_1, e5_0, e5_1⟩ := idx_facts t
  match a with
  | ⟨0, _⟩ => show win0_5.index t (0 : Fin 2) * 1 + 1 * (y 0).val = (y 0).val; rw [e5_0]; omega
  | ⟨1, _⟩ => show win0_5.index t (1 : Fin 2) * 4096 + 1 * (y 1).val = (y 1).val; rw [e5_1]; omega

/-! ## The weights and the bias as the host lines leave them -/

theorem V_weightsx (c : Dev nD) : (V m c main_v11 : S1024x4096.Idx → EReal)
    = weightsT (m ((c : Thread nD τ).loc main_arg3)) (m ((c : Thread nD τ).loc main_arg5)) (m ((c : Thread nD τ).loc main_arg7)) (m ((c : Thread nD τ).loc main_arg9)) 0 slices_S1024x2048_S1024x1024_0_0 := by
  dsimp only [V, hostOps0]; after_results; rfl

theorem V_weightsh (c : Dev nD) : (V m c main_v13 : S1024x4096.Idx → EReal)
    = weightsT (m ((c : Thread nD τ).loc main_arg3)) (m ((c : Thread nD τ).loc main_arg5)) (m ((c : Thread nD τ).loc main_arg7)) (m ((c : Thread nD τ).loc main_arg9)) 1024 slices_S1024x2048_S1024x1024_0_1024 := by
  dsimp only [V, hostOps0]; after_results; rfl

theorem V_bias (c : Dev nD) : (V m c main_v15 : S1x4096.Idx → EReal)
    = biasRow (m ((c : Thread nD τ).loc main_arg4)) (m ((c : Thread nD τ).loc main_arg6)) (m ((c : Thread nD τ).loc main_arg8)) (m ((c : Thread nD τ).loc main_arg10)) := by
  dsimp only [V, hostOps0]; after_results; rfl

/-! ## From blocks to arrays -/

/-- What point `t` writes back into the cell array is block `t` of the LSTM cell's cell. -/
theorem flushed_cell (c : Dev nD) (t : Fin cfg0.N) :
    (dats m 0 c).flushed 7 t = ((cfg0.win 7).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 7).cut (grid0.coords t) ((dats m 0 c).after 7 t) = _
  rw [after0_7]
  unfold cellBlock
  rw [View.canon_unit_zero hz]
  simp only [View.ld_unit_zero (S := S256x1024) hz, View.ld_unit_zero (S := S1024x4096) hz, View.ld_unit_zero (S := S1x4096) hz]
  funext (y : S256x1024.Idx)
  obtain ⟨r, q, rfl⟩ : ∃ (r : Fin 256) (q : Fin 1024), y = ix2 r q := ⟨y 0, y 1, eq_ix2 y⟩
  refine (cell_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 2 t) (iblk m c 3 t) (iblk m c 4 t) (iblk m c 5 t) r q (rowOf t r)
    (x_row m c t r) (h_row m c t r) (c_row m c t r q)
    ((weightsx_block m c t).trans (V_weightsx m c)) ((weightsh_block m c t).trans (V_weightsh m c)) ((bias_block m c t).trans (V_bias m c))).trans ?_
  show _ = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 7).blk t).view.emb (ix2 r q))
  have e : ((cfg0.win 7).blk t).view.emb (ix2 r q) = ix2 (rowOf t r) q := by
    funext a; apply Fin.ext
    obtain ⟨e0_0, e0_1, e1_0, e1_1, e2_0, e2_1, e6_0, e6_1, e7_0, e7_1, e3_0, e3_1, e4_0, e4_1, e5_0, e5_1⟩ := idx_facts t
    match a with
    | ⟨0, _⟩ => show win0_7.index t (0 : Fin 2) * 256 + 1 * r.val = 256 * t.val + r.val; rw [e7_0]; omega
    | ⟨1, _⟩ => show win0_7.index t (1 : Fin 2) * 1024 + 1 * q.val = q.val; rw [e7_1]; omega
  rw [e]
  rfl

/-- An index of the cell array is in point `t`'s block iff each coordinate is in the block's range on its axis. -/
theorem mem_blk_cell (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v16_1).slice (win0_7.rect t)).set ↔ _
  rw [View.set_slice_whole, Rect.mem_set_unit]
  exact Iff.rfl

/-- Every index of the cell array is in the block of the point that holds its row: row `i` belongs to point `i / 256`. -/
theorem cover_cell (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 64 := N_0
  refine ⟨⟨(i 0).val / 256, by rw [hN]; omega⟩, flush0_7 _, ?_⟩
  rw [mem_blk_cell]
  obtain ⟨e0_0, e0_1, e1_0, e1_1, e2_0, e2_1, e6_0, e6_1, e7_0, e7_1, e3_0, e3_1, e4_0, e4_1, e5_0, e5_1⟩ := idx_facts ⟨(i 0).val / 256, by rw [hN]; omega⟩
  intro a
  match a with
  | ⟨0, _⟩ =>
    show win0_7.index ⟨(i 0).val / 256, _⟩ (0 : Fin 2) * 256 ≤ (i 0).val ∧ (i 0).val < win0_7.index ⟨(i 0).val / 256, _⟩ (0 : Fin 2) * 256 + 256
    rw [e7_0]; show (i 0).val / 256 * 256 ≤ (i 0).val ∧ (i 0).val < (i 0).val / 256 * 256 + 256; omega
  | ⟨1, _⟩ =>
    show win0_7.index ⟨(i 0).val / 256, _⟩ (1 : Fin 2) * 1024 ≤ (i 1).val ∧ (i 1).val < win0_7.index ⟨(i 0).val / 256, _⟩ (1 : Fin 2) * 1024 + 1024
    rw [e7_1]; omega

/-- After the run the cell array is the LSTM cell's cell. -/
theorem final_cell (c : Dev nD) : (dats m 0 c).arrAt 7 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 7 _ (fun t _ => flushed_cell m c t) cover_cell

/-- What point `t` writes back into the hidden array is block `t` of the LSTM cell's hidden. -/
theorem flushed_hidden (c : Dev nD) (t : Fin cfg0.N) :
    (dats m 0 c).flushed 6 t = ((cfg0.win 6).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 6).cut (grid0.coords t) ((dats m 0 c).after 6 t) = _
  rw [after0_6]
  unfold hiddenBlock
  rw [View.canon_unit_zero hz]
  simp only [View.ld_unit_zero (S := S256x1024) hz, View.ld_unit_zero (S := S1024x4096) hz, View.ld_unit_zero (S := S1x4096) hz]
  funext (y : S256x1024.Idx)
  obtain ⟨r, q, rfl⟩ : ∃ (r : Fin 256) (q : Fin 1024), y = ix2 r q := ⟨y 0, y 1, eq_ix2 y⟩
  refine (hidden_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 2 t) (iblk m c 3 t) (iblk m c 4 t) (iblk m c 5 t) r q (rowOf t r)
    (x_row m c t r) (h_row m c t r) (c_row m c t r q)
    ((weightsx_block m c t).trans (V_weightsx m c)) ((weightsh_block m c t).trans (V_weightsh m c)) ((bias_block m c t).trans (V_bias m c))).trans ?_
  show _ = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 6).blk t).view.emb (ix2 r q))
  have e : ((cfg0.win 6).blk t).view.emb (ix2 r q) = ix2 (rowOf t r) q := by
    funext a; apply Fin.ext
    obtain ⟨e0_0, e0_1, e1_0, e1_1, e2_0, e2_1, e6_0, e6_1, e7_0, e7_1, e3_0, e3_1, e4_0, e4_1, e5_0, e5_1⟩ := idx_facts t
    match a with
    | ⟨0, _⟩ => show win0_6.index t (0 : Fin 2) * 256 + 1 * r.val = 256 * t.val + r.val; rw [e6_0]; omega
    | ⟨1, _⟩ => show win0_6.index t (1 : Fin 2) * 1024 + 1 * q.val = q.val; rw [e6_1]; omega
  rw [e]
  rfl

/-- An index of the hidden array is in point `t`'s block iff each coordinate is in the block's range on its axis. -/
theorem mem_blk_hidden (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v16_0).slice (win0_6.rect t)).set ↔ _
  rw [View.set_slice_whole, Rect.mem_set_unit]
  exact Iff.rfl

/-- Every index of the hidden array is in the block of the point that holds its row: row `i` belongs to point `i / 256`. -/
theorem cover_hidden (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 64 := N_0
  refine ⟨⟨(i 0).val / 256, by rw [hN]; omega⟩, flush0_6 _, ?_⟩
  rw [mem_blk_hidden]
  obtain ⟨e0_0, e0_1, e1_0, e1_1, e2_0, e2_1, e6_0, e6_1, e7_0, e7_1, e3_0, e3_1, e4_0, e4_1, e5_0, e5_1⟩ := idx_facts ⟨(i 0).val / 256, by rw [hN]; omega⟩
  intro a
  match a with
  | ⟨0, _⟩ =>
    show win0_6.index ⟨(i 0).val / 256, _⟩ (0 : Fin 2) * 256 ≤ (i 0).val ∧ (i 0).val < win0_6.index ⟨(i 0).val / 256, _⟩ (0 : Fin 2) * 256 + 256
    rw [e6_0]; show (i 0).val / 256 * 256 ≤ (i 0).val ∧ (i 0).val < (i 0).val / 256 * 256 + 256; omega
  | ⟨1, _⟩ =>
    show win0_6.index ⟨(i 0).val / 256, _⟩ (1 : Fin 2) * 1024 ≤ (i 1).val ∧ (i 1).val < win0_6.index ⟨(i 0).val / 256, _⟩ (1 : Fin 2) * 1024 + 1024
    rw [e6_1]; omega

/-- After the run the hidden array is the LSTM cell's hidden. -/
theorem final_hidden (c : Dev nD) : (dats m 0 c).arrAt 6 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 6 _ (fun t _ => flushed_hidden m c t) cover_hidden

/-! ## The run, read -/

/-- After the run the arguments are as launched. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- Every weakly fair execution of the kernel's program terminates with its two results at the LSTM cell's new hidden
    state and new cell state of the arguments, and the arguments unchanged. -/
theorem run : θ_run defs (onTc (τ := τ) (main (F := Ideal))) ⟨m, fun _ => 0, ρ⟩ fun r => ∀ c : Dev nD,
      r.2.mem ((c : Thread nD τ).loc main_v16_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v16_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 6).trans (final_hidden m c), ((h c).1 7).trans (final_cell m c), kept m r h c⟩)
    (run_main m ρ)

end Cert.KernelIdeal.CellValue

end
-- ==== Proof.CellOfReference.lean ====
/-
  The reference computes the LSTM cell.

  It sets x and h side by side into one [16384, 2048] matrix, stacks the four gates' weights into [4096, 2048] and
  their biases into one vector of 4096, multiplies by the transposed stack, adds the bias row, cuts the result into
  the four gates' column blocks, and applies sigma = 1 / (1 + exp(-·)), tanh and the cell update. Column 1024 g + q of
  gate g's block is that gate's pre-activation at hidden unit q: the stacked weights' row 1024 g + q is gate g's row q,
  and the contraction over 2048 columns splits at column 1024 into its x part and its h part.
-/
import proofs.«165963_j3685081940484_2_alg».proof.Proof.Gen.ReferenceIdeal.Read
import proofs.«165963_j3685081940484_2_alg».proof.Proof.CellSpec
import proofs.«165963_j3685081940484_2_alg».proof.Proof.LibFourPieces
import proofs.«165963_j3685081940484_2_alg».proof.Proof.LibBesideTwo
import Idealize.ShloMosaic.Lib.IdealHost

noncomputable section

open scoped BigOperators

namespace Cert.ReferenceIdeal.Cell

open Cert.ReferenceIdeal Cert.ReferenceIdeal.Gen Cert.ReferenceIdeal.Read Cert.CellSpec
open Idealize.ShloMosaic Idealize.ShloMosaic.TcCoe Idealize.ShloMosaic.ValueIdx

variable (x0 x1 x2 : (⟨S16384x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S1024, .f32⟩ : BufTy).Contents (Elt Ideal))

/-- Column k < 1024 of the side-by-side matrix is x's column k. -/
theorem joined_left (p : Fin 16384) (k : Fin 1024) : val_main_v0 (F := Ideal) x0 x1 (ix2 p (lo k)) = x0 (ix2 p k) := by
  unfold val_main_v0
  exact Cert.BesideTwo.cat2_left (R := 16384) (a := 1024) (b := 1024) (n := 2048) rfl x0 x1 _ p k

/-- Column 1024 + k is h's column k. -/
theorem joined_right (p : Fin 16384) (k : Fin 1024) : val_main_v0 (F := Ideal) x0 x1 (ix2 p (hi k)) = x1 (ix2 p k) := by
  unfold val_main_v0
  exact Cert.BesideTwo.cat2_right (R := 16384) (a := 1024) (b := 1024) (n := 2048) rfl x0 x1 _ p k

/-- Column `q` of the stacked, transposed weights is row `q` of the input gate's weights. -/
theorem weights_0 (q : Fin 1024) (j : Fin 4096) (hj : j.val = q.val) (k : Fin 2048) :
    val_main_v3 (F := Ideal) x3 x5 x7 x9 (ix2 k j) = x3 (ix2 q k) := by
  obtain ⟨jv, hjv⟩ := j
  have hj' : jv = q.val := hj
  obtain rfl : jv = q.val := by omega
  rw [val_main_v3_apply]
  have e : idx_main_v3 (ix2 k (⟨q.val, hjv⟩ : Fin 4096)) = ix2 (⟨q.val, hjv⟩ : Fin 4096) k :=
    funext fun a => match a with | ⟨0, _⟩ => rfl | ⟨1, _⟩ => rfl
  rw [e]; unfold val_main_v1
  exact Cert.FourPieces.stack4_0 (a := 1024) (b := 1024) (c := 1024) (d := 1024) (n := 4096) (C := 2048) rfl x3 x5 x7 x9 _ q k

/-- Entry `q` of the bias row, at any batch row, is entry `q` of the input gate's bias. -/
theorem bias_0 (p : Fin 16384) (q : Fin 1024) (j : Fin 4096) (hj : j.val = q.val) :
    val_main_v6 (F := Ideal) x4 x6 x8 x10 (ix2 p j) = x4 (ix1 q) := by
  obtain ⟨jv, hjv⟩ := j
  have hj' : jv = q.val := hj
  obtain rfl : jv = q.val := by omega
  rw [val_main_v6_apply, val_main_v5_apply]
  have e : idx_main_v5 (idx_main_v6 (ix2 p (⟨q.val, hjv⟩ : Fin 4096))) = ix1 (⟨q.val, hjv⟩ : Fin 4096) :=
    funext fun a => match a with | ⟨0, _⟩ => rfl
  rw [e]; unfold val_main_v2
  exact Cert.FourPieces.catv4_0 (a := 1024) (b := 1024) (c := 1024) (d := 1024) (n := 4096) rfl x4 x6 x8 x10 _ q

/-- The input gate's slice of the summed products plus bias is its pre-activation. -/
theorem gate_0 (i : S16384x4096.Idx) (p : Fin 16384) (q : Fin 1024) (hp : (i 0).val = p.val) (hq : (i 1).val = q.val) :
    val_main_v7 (F := Ideal) x0 x1 x3 x4 x5 x6 x7 x8 x9 x10 i = pre x0 x1 x3 x4 p q := by
  obtain ⟨j, rfl⟩ : ∃ j : Fin 4096, i = ix2 p j := ⟨⟨(i 1).val, (i 1).isLt⟩, funext fun a => match a with | ⟨0, _⟩ => Fin.ext hp | ⟨1, _⟩ => rfl⟩
  have hj : j.val = q.val := hq
  rw [val_main_v7_apply, val_main_v4_apply, Ideal.addf_def]
  have el : ∀ k, lidx_main_v4 (ix2 p j) k = ix2 p k := fun k => funext fun a => match a with | ⟨0, _⟩ => rfl | ⟨1, _⟩ => rfl
  have er : ∀ k, ridx_main_v4 (ix2 p j) k = ix2 k j := fun k => funext fun a => match a with | ⟨0, _⟩ => rfl | ⟨1, _⟩ => rfl
  simp only [el, er]
  exact pre_of_joined x0 x1 x3 x4 (val_main_v0 (F := Ideal) x0 x1) (val_main_v3 (F := Ideal) x3 x5 x7 x9) _ p q j
    (joined_left x0 x1 p) (joined_right x0 x1 p) (weights_0 x3 x5 x7 x9 q j hj) (bias_0 x4 x6 x8 x10 p q j hj)

/-- Column `1024 + q` of the stacked, transposed weights is row `q` of the forget gate's weights. -/
theorem weights_1 (q : Fin 1024) (j : Fin 4096) (hj : j.val = 1024 + q.val) (k : Fin 2048) :
    val_main_v3 (F := Ideal) x3 x5 x7 x9 (ix2 k j) = x5 (ix2 q k) := by
  obtain ⟨jv, hjv⟩ := j
  have hj' : jv = 1024 + q.val := hj
  obtain rfl : jv = 1024 + q.val := by omega
  rw [val_main_v3_apply]
  have e : idx_main_v3 (ix2 k (⟨1024 + q.val, hjv⟩ : Fin 4096)) = ix2 (⟨1024 + q.val, hjv⟩ : Fin 4096) k :=
    funext fun a => match a with | ⟨0, _⟩ => rfl | ⟨1, _⟩ => rfl
  rw [e]; unfold val_main_v1
  exact Cert.FourPieces.stack4_1 (a := 1024) (b := 1024) (c := 1024) (d := 1024) (n := 4096) (C := 2048) rfl x3 x5 x7 x9 _ q k

/-- Entry `1024 + q` of the bias row, at any batch row, is entry `q` of the forget gate's bias. -/
theorem bias_1 (p : Fin 16384) (q : Fin 1024) (j : Fin 4096) (hj : j.val = 1024 + q.val) :
    val_main_v6 (F := Ideal) x4 x6 x8 x10 (ix2 p j) = x6 (ix1 q) := by
  obtain ⟨jv, hjv⟩ := j
  have hj' : jv = 1024 + q.val := hj
  obtain rfl : jv = 1024 + q.val := by omega
  rw [val_main_v6_apply, val_main_v5_apply]
  have e : idx_main_v5 (idx_main_v6 (ix2 p (⟨1024 + q.val, hjv⟩ : Fin 4096))) = ix1 (⟨1024 + q.val, hjv⟩ : Fin 4096) :=
    funext fun a => match a with | ⟨0, _⟩ => rfl
  rw [e]; unfold val_main_v2
  exact Cert.FourPieces.catv4_1 (a := 1024) (b := 1024) (c := 1024) (d := 1024) (n := 4096) rfl x4 x6 x8 x10 _ q

/-- The forget gate's slice of the summed products plus bias is its pre-activation. -/
theorem gate_1 (i : S16384x4096.Idx) (p : Fin 16384) (q : Fin 1024) (hp : (i 0).val = p.val) (hq : (i 1).val = 1024 + q.val) :
    val_main_v7 (F := Ideal) x0 x1 x3 x4 x5 x6 x7 x8 x9 x10 i = pre x0 x1 x5 x6 p q := by
  obtain ⟨j, rfl⟩ : ∃ j : Fin 4096, i = ix2 p j := ⟨⟨(i 1).val, (i 1).isLt⟩, funext fun a => match a with | ⟨0, _⟩ => Fin.ext hp | ⟨1, _⟩ => rfl⟩
  have hj : j.val = 1024 + q.val := hq
  rw [val_main_v7_apply, val_main_v4_apply, Ideal.addf_def]
  have el : ∀ k, lidx_main_v4 (ix2 p j) k = ix2 p k := fun k => funext fun a => match a with | ⟨0, _⟩ => rfl | ⟨1, _⟩ => rfl
  have er : ∀ k, ridx_main_v4 (ix2 p j) k = ix2 k j := fun k => funext fun a => match a with | ⟨0, _⟩ => rfl | ⟨1, _⟩ => rfl
  simp only [el, er]
  exact pre_of_joined x0 x1 x5 x6 (val_main_v0 (F := Ideal) x0 x1) (val_main_v3 (F := Ideal) x3 x5 x7 x9) _ p q j
    (joined_left x0 x1 p) (joined_right x0 x1 p) (weights_1 x3 x5 x7 x9 q j hj) (bias_1 x4 x6 x8 x10 p q j hj)

/-- Column `1024 + 1024 + q` of the stacked, transposed weights is row `q` of the candidate gate's weights. -/
theorem weights_2 (q : Fin 1024) (j : Fin 4096) (hj : j.val = 2048 + q.val) (k : Fin 2048) :
    val_main_v3 (F := Ideal) x3 x5 x7 x9 (ix2 k j) = x7 (ix2 q k) := by
  obtain ⟨jv, hjv⟩ := j
  have hj' : jv = 2048 + q.val := hj
  obtain rfl : jv = 1024 + 1024 + q.val := by omega
  rw [val_main_v3_apply]
  have e : idx_main_v3 (ix2 k (⟨1024 + 1024 + q.val, hjv⟩ : Fin 4096)) = ix2 (⟨1024 + 1024 + q.val, hjv⟩ : Fin 4096) k :=
    funext fun a => match a with | ⟨0, _⟩ => rfl | ⟨1, _⟩ => rfl
  rw [e]; unfold val_main_v1
  exact Cert.FourPieces.stack4_2 (a := 1024) (b := 1024) (c := 1024) (d := 1024) (n := 4096) (C := 2048) rfl x3 x5 x7 x9 _ q k

/-- Entry `1024 + 1024 + q` of the bias row, at any batch row, is entry `q` of the candidate gate's bias. -/
theorem bias_2 (p : Fin 16384) (q : Fin 1024) (j : Fin 4096) (hj : j.val = 2048 + q.val) :
    val_main_v6 (F := Ideal) x4 x6 x8 x10 (ix2 p j) = x8 (ix1 q) := by
  obtain ⟨jv, hjv⟩ := j
  have hj' : jv = 2048 + q.val := hj
  obtain rfl : jv = 1024 + 1024 + q.val := by omega
  rw [val_main_v6_apply, val_main_v5_apply]
  have e : idx_main_v5 (idx_main_v6 (ix2 p (⟨1024 + 1024 + q.val, hjv⟩ : Fin 4096))) = ix1 (⟨1024 + 1024 + q.val, hjv⟩ : Fin 4096) :=
    funext fun a => match a with | ⟨0, _⟩ => rfl
  rw [e]; unfold val_main_v2
  exact Cert.FourPieces.catv4_2 (a := 1024) (b := 1024) (c := 1024) (d := 1024) (n := 4096) rfl x4 x6 x8 x10 _ q

/-- The candidate gate's slice of the summed products plus bias is its pre-activation. -/
theorem gate_2 (i : S16384x4096.Idx) (p : Fin 16384) (q : Fin 1024) (hp : (i 0).val = p.val) (hq : (i 1).val = 2048 + q.val) :
    val_main_v7 (F := Ideal) x0 x1 x3 x4 x5 x6 x7 x8 x9 x10 i = pre x0 x1 x7 x8 p q := by
  obtain ⟨j, rfl⟩ : ∃ j : Fin 4096, i = ix2 p j := ⟨⟨(i 1).val, (i 1).isLt⟩, funext fun a => match a with | ⟨0, _⟩ => Fin.ext hp | ⟨1, _⟩ => rfl⟩
  have hj : j.val = 2048 + q.val := hq
  rw [val_main_v7_apply, val_main_v4_apply, Ideal.addf_def]
  have el : ∀ k, lidx_main_v4 (ix2 p j) k = ix2 p k := fun k => funext fun a => match a with | ⟨0, _⟩ => rfl | ⟨1, _⟩ => rfl
  have er : ∀ k, ridx_main_v4 (ix2 p j) k = ix2 k j := fun k => funext fun a => match a with | ⟨0, _⟩ => rfl | ⟨1, _⟩ => rfl
  simp only [el, er]
  exact pre_of_joined x0 x1 x7 x8 (val_main_v0 (F := Ideal) x0 x1) (val_main_v3 (F := Ideal) x3 x5 x7 x9) _ p q j
    (joined_left x0 x1 p) (joined_right x0 x1 p) (weights_2 x3 x5 x7 x9 q j hj) (bias_2 x4 x6 x8 x10 p q j hj)

/-- Column `1024 + 1024 + 1024 + q` of the stacked, transposed weights is row `q` of the output gate's weights. -/
theorem weights_3 (q : Fin 1024) (j : Fin 4096) (hj : j.val = 3072 + q.val) (k : Fin 2048) :
    val_main_v3 (F := Ideal) x3 x5 x7 x9 (ix2 k j) = x9 (ix2 q k) := by
  obtain ⟨jv, hjv⟩ := j
  have hj' : jv = 3072 + q.val := hj
  obtain rfl : jv = 1024 + 1024 + 1024 + q.val := by omega
  rw [val_main_v3_apply]
  have e : idx_main_v3 (ix2 k (⟨1024 + 1024 + 1024 + q.val, hjv⟩ : Fin 4096)) = ix2 (⟨1024 + 1024 + 1024 + q.val, hjv⟩ : Fin 4096) k :=
    funext fun a => match a with | ⟨0, _⟩ => rfl | ⟨1, _⟩ => rfl
  rw [e]; unfold val_main_v1
  exact Cert.FourPieces.stack4_3 (a := 1024) (b := 1024) (c := 1024) (d := 1024) (n := 4096) (C := 2048) rfl x3 x5 x7 x9 _ q k

/-- Entry `1024 + 1024 + 1024 + q` of the bias row, at any batch row, is entry `q` of the output gate's bias. -/
theorem bias_3 (p : Fin 16384) (q : Fin 1024) (j : Fin 4096) (hj : j.val = 3072 + q.val) :
    val_main_v6 (F := Ideal) x4 x6 x8 x10 (ix2 p j) = x10 (ix1 q) := by
  obtain ⟨jv, hjv⟩ := j
  have hj' : jv = 3072 + q.val := hj
  obtain rfl : jv = 1024 + 1024 + 1024 + q.val := by omega
  rw [val_main_v6_apply, val_main_v5_apply]
  have e : idx_main_v5 (idx_main_v6 (ix2 p (⟨1024 + 1024 + 1024 + q.val, hjv⟩ : Fin 4096))) = ix1 (⟨1024 + 1024 + 1024 + q.val, hjv⟩ : Fin 4096) :=
    funext fun a => match a with | ⟨0, _⟩ => rfl
  rw [e]; unfold val_main_v2
  exact Cert.FourPieces.catv4_3 (a := 1024) (b := 1024) (c := 1024) (d := 1024) (n := 4096) rfl x4 x6 x8 x10 _ q

/-- The output gate's slice of the summed products plus bias is its pre-activation. -/
theorem gate_3 (i : S16384x4096.Idx) (p : Fin 16384) (q : Fin 1024) (hp : (i 0).val = p.val) (hq : (i 1).val = 3072 + q.val) :
    val_main_v7 (F := Ideal) x0 x1 x3 x4 x5 x6 x7 x8 x9 x10 i = pre x0 x1 x9 x10 p q := by
  obtain ⟨j, rfl⟩ : ∃ j : Fin 4096, i = ix2 p j := ⟨⟨(i 1).val, (i 1).isLt⟩, funext fun a => match a with | ⟨0, _⟩ => Fin.ext hp | ⟨1, _⟩ => rfl⟩
  have hj : j.val = 3072 + q.val := hq
  rw [val_main_v7_apply, val_main_v4_apply, Ideal.addf_def]
  have el : ∀ k, lidx_main_v4 (ix2 p j) k = ix2 p k := fun k => funext fun a => match a with | ⟨0, _⟩ => rfl | ⟨1, _⟩ => rfl
  have er : ∀ k, ridx_main_v4 (ix2 p j) k = ix2 k j := fun k => funext fun a => match a with | ⟨0, _⟩ => rfl | ⟨1, _⟩ => rfl
  simp only [el, er]
  exact pre_of_joined x0 x1 x9 x10 (val_main_v0 (F := Ideal) x0 x1) (val_main_v3 (F := Ideal) x3 x5 x7 x9) _ p q j
    (joined_left x0 x1 p) (joined_right x0 x1 p) (weights_3 x3 x5 x7 x9 q j hj) (bias_3 x4 x6 x8 x10 p q j hj)

/-- The reference's second result is the new cell state. -/
theorem cell_eq : val_main_v33 (F := Ideal) x0 x1 x2 x3 x4 x5 x6 x7 x8 x9 x10 = cellArr x0 x1 x2 x3 x4 x5 x6 x7 x8 := by
  funext i
  obtain ⟨p, q, rfl⟩ : ∃ (p : Fin 16384) (q : Fin 1024), i = ix2 p q := ⟨i 0, i 1, eq_ix2 i⟩
  rw [cellArr_ix2]
  simp only [val_main_v33_apply, val_main_v31_apply, val_main_v32_apply, val_main_v23_apply, val_main_v22_apply, val_main_cst_2_apply,
    val_main_v21_apply, val_main_v20_apply, val_main_cst_1_apply, val_main_v19_apply, val_main_v18_apply, val_main_v9_apply,
    val_main_v17_apply, val_main_v16_apply, val_main_cst_0_apply, val_main_v15_apply, val_main_v14_apply, val_main_cst_apply,
    val_main_v13_apply, val_main_v12_apply, val_main_v8_apply, val_main_v24_apply, val_main_v10_apply]
  rw [gate_0 x0 x1 x3 x4 x5 x6 x7 x8 x9 x10 (idx_main_v8 (ix2 p q)) p q rfl rfl, gate_1 x0 x1 x3 x4 x5 x6 x7 x8 x9 x10 (idx_main_v9 (ix2 p q)) p q rfl rfl,
    gate_2 x0 x1 x3 x4 x5 x6 x7 x8 x9 x10 (idx_main_v10 (ix2 p q)) p q rfl rfl]
  simp only [Ideal.ofBits_def, Ideal.ofBits_one_f32, Ideal.addf_def, Ideal.mulf_def, Ideal.hostDivf_def, Ideal.hostNegf_def, Ideal.negf_def,
    Ideal.hostUnary_exp_def, Ideal.hostUnary_tanh_def]
  rfl

/-- The reference's first result is the new hidden state. -/
theorem hidden_eq : val_main_v35 (F := Ideal) x0 x1 x2 x3 x4 x5 x6 x7 x8 x9 x10 = hiddenArr x0 x1 x2 x3 x4 x5 x6 x7 x8 x9 x10 := by
  funext i
  obtain ⟨p, q, rfl⟩ : ∃ (p : Fin 16384) (q : Fin 1024), i = ix2 p q := ⟨i 0, i 1, eq_ix2 i⟩
  rw [hiddenArr_ix2, val_main_v35_apply, val_main_v34_apply, cell_eq, cellArr_ix2]
  simp only [val_main_v30_apply, val_main_v29_apply, val_main_cst_4_apply, val_main_v28_apply, val_main_v27_apply, val_main_cst_3_apply,
    val_main_v26_apply, val_main_v25_apply, val_main_v11_apply]
  rw [gate_3 x0 x1 x3 x4 x5 x6 x7 x8 x9 x10 (idx_main_v11 (ix2 p q)) p q rfl rfl]
  simp only [Ideal.ofBits_def, Ideal.ofBits_one_f32, Ideal.addf_def, Ideal.mulf_def, Ideal.hostDivf_def, Ideal.hostNegf_def, Ideal.negf_def,
    Ideal.hostUnary_exp_def, Ideal.hostUnary_tanh_def]
  rfl

end Cert.ReferenceIdeal.Cell

end
-- ==== Proof.lean ====
/-
  One step of an LSTM cell: a fused kernel against its plain reference.

  Both programs take x, h, c : [16384, 1024], four gate weight matrices [1024, 2048] and four biases [1024]. The
  reference sets x and h side by side, multiplies by the transposed stack of the four weight matrices, adds the joined
  biases, and applies the gates. The kernel never forms the side-by-side matrix: it multiplies a block of rows of x by
  the input halves of the weights and the same rows of h by the recurrent halves, and adds the two products. On exact
  values the two agree entry by entry, because a sum over 2048 terms is the sum over its first 1024 terms plus the sum
  over its last 1024, and the kernel's logistic function is 1 / (1 + exp(-·)) by definition; no finiteness of the
  inputs is used. Both results equal one function of the arguments (the cell of the specification module); each program runs to the end, faults
  nowhere and leaves its arguments unchanged; the kernel's idealization rewrote no operation, so it states nothing
  beyond the program's own text read at exact values.
-/
import proofs.«165963_j3685081940484_2_alg».proof.Defs
import proofs.«165963_j3685081940484_2_alg».proof.Proof.Gen.Kernel
import proofs.«165963_j3685081940484_2_alg».proof.Proof.Gen.Kernel.Skeleton
import proofs.«165963_j3685081940484_2_alg».proof.Proof.Gen.Kernel.Launch
import proofs.«165963_j3685081940484_2_alg».proof.Proof.Gen.Kernel.Points
import proofs.«165963_j3685081940484_2_alg».proof.Proof.Gen.KernelIdeal
import proofs.«165963_j3685081940484_2_alg».proof.Proof.Gen.KernelIdeal.Skeleton
import proofs.«165963_j3685081940484_2_alg».proof.Proof.Gen.KernelIdeal.Launch
import proofs.«165963_j3685081940484_2_alg».proof.Proof.Gen.KernelIdeal.Points
import proofs.«165963_j3685081940484_2_alg».proof.Proof.Gen.ReferenceIdeal
import proofs.«165963_j3685081940484_2_alg».proof.Proof.Gen.Pre_finite_inputs
import proofs.«165963_j3685081940484_2_alg».proof.Proof.Gen.ReferenceIdeal.Run
import proofs.«165963_j3685081940484_2_alg».proof.Proof.Gen.ReferenceIdeal.Read
import proofs.«165963_j3685081940484_2_alg».proof.Proof.CellRunBits
import proofs.«165963_j3685081940484_2_alg».proof.Proof.CellArrays
import proofs.«165963_j3685081940484_2_alg».proof.Proof.CellOfReference
import Idealize.ShloMosaic.Adequacy
import Idealize.ShloMosaic.Init

noncomputable section

namespace Cert.Proof

open Idealize.ShloMosaic Idealize.ShloMosaic.TcCoe Idealize.SL.Sem Cert.CellSpec

/-- The kernel's program as printed runs and keeps its arguments. -/
theorem frame_kernel : Cert.frame_Kernel (hKernel := Cert.Kernel.Gen.facts) (hPre_finite_inputs := Cert.Pre_finite_inputs.Gen.facts) :=
  fun m ρ _ => Cert.Kernel.Cell.frame m ρ

/-- So does its reading at exact values. -/
theorem frame_ideal : Cert.frame_KernelIdeal (hKernelIdeal := Cert.KernelIdeal.Gen.facts) (hPre_finite_inputs := Cert.Pre_finite_inputs.Gen.facts) :=
  fun m ρ _ => Cert.KernelIdeal.Cell.frame m ρ

/-- The reference is host operations only: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the arguments both programs end with the cell's new hidden state and new cell state. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.Cell.hidden_eq, a0, a1, a2, a3, a4, a5, a6, a7, a8, a9, a10]
  · obtain ⟨a0, a1, a2, a3, a4, a5, a6, a7, a8, a9, a10⟩ := hagree c
    rw [Cert.ReferenceIdeal.Read.val_main_v33_eq, Cert.ReferenceIdeal.Cell.cell_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
